-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x3 : Shape := ⟨3, ![16, 8192, 3]⟩
abbrev S16x2048x3 : Shape := ⟨3, ![16, 2048, 3]⟩
abbrev S_ : Shape := ⟨0, ![]⟩

class Facts : Prop where
  bcast_S_S16x8192x3 : S_.BroadcastsInDim S16x8192x3 (![] : Fin 0 → Fin S16x8192x3.rank)
  reducesTo_S16x8192x3_S_d0_1_2 : S16x8192x3.ReducesTo [0, 1, 2] S_
  h_S_ : 0 < S_.numel
  bcast_S_S16x2048x3 : S_.BroadcastsInDim S16x2048x3 (![] : Fin 0 → Fin S16x2048x3.rank)
  reducesTo_S16x2048x3_S_d0_1_2 : S16x2048x3.ReducesTo [0, 1, 2] S_

variable [Facts]

def fn {F : FTy → Type} [FloatOps F] (main_arg0 : FVec F S16x8192x3 .f32) (main_arg1 : FVec F S16x2048x3 .f32) : IVec S_ 1 :=
  let main_v0 : FVec F S16x8192x3 .f32 := Host.absf main_arg0
  let main_cst : FVec F S_ .f32 := constant S_ .f32 0x7F800000#32
  let main_v1 : FVec F S16x8192x3 .f32 := broadcastInDim S16x8192x3 ![] bcast_S_S16x8192x3 main_cst
  let main_v2 : IVec S16x8192x3 1 := cmpf .olt main_v0 main_v1
  let main_c : IVec S_ 1 := constantI S_ 1 1#1
  let main_v3 : IVec S_ 1 := (fun x v => Host.reduce IntOp.andi x v reducesTo_S16x8192x3_S_d0_1_2 h_S_) main_v2 main_c
  let main_v4 : FVec F S16x2048x3 .f32 := Host.absf main_arg1
  let main_cst_0 : FVec F S_ .f32 := constant S_ .f32 0x7F800000#32
  let main_v5 : FVec F S16x2048x3 .f32 := broadcastInDim S16x2048x3 ![] bcast_S_S16x2048x3 main_cst_0
  let main_v6 : IVec S16x2048x3 1 := cmpf .olt main_v4 main_v5
  let main_c_1 : IVec S_ 1 := constantI S_ 1 1#1
  let main_v7 : IVec S_ 1 := (fun x v => Host.reduce IntOp.andi x v reducesTo_S16x2048x3_S_d0_1_2 h_S_) main_v6 main_c_1
  let main_v8 : IVec S_ 1 := andi main_v3 main_v7
  main_v8
-- ==== Kernel.lean ====
abbrev S16x8192x3 : Shape := ⟨3, ![16, 8192, 3]⟩
abbrev S16x2048x3 : Shape := ⟨3, ![16, 2048, 3]⟩
abbrev S16x3x8192 : Shape := ⟨3, ![16, 3, 8192]⟩
abbrev S16x2048 : Shape := ⟨2, ![16, 2048]⟩
abbrev S16x8192 : Shape := ⟨2, ![16, 8192]⟩
abbrev S8x2048x3 : Shape := ⟨3, ![8, 2048, 3]⟩
abbrev S8x3x256 : Shape := ⟨3, ![8, 3, 256]⟩
abbrev S8x2048 : Shape := ⟨2, ![8, 2048]⟩
abbrev S8x256 : Shape := ⟨2, ![8, 256]⟩
abbrev S8x256x3 : Shape := ⟨3, ![8, 256, 3]⟩
abbrev S8x256x1 : Shape := ⟨3, ![8, 256, 1]⟩
abbrev S8x1x256 : Shape := ⟨3, ![8, 1, 256]⟩
abbrev S8x256x256 : Shape := ⟨3, ![8, 256, 256]⟩
abbrev S_ : Shape := ⟨0, ![]⟩
abbrev S16 : Shape := ⟨1, ![16]⟩

abbrev nBuf : Space → Nat
  | .hbm => 32
  | .vmem => 8
  | .smem => 0
  | _ => 0

abbrev bufTy : (tb : Table) → Fin (tcTables nBuf tb) → BufTy
  | .hbm, ⟨0, _⟩ => ⟨S16x8192x3, .f32⟩
  | .hbm, ⟨1, _⟩ => ⟨S16x2048x3, .f32⟩
  | .hbm, ⟨2, _⟩ => ⟨S16x3x8192, .f32⟩
  | .hbm, ⟨3, _⟩ => ⟨S16x2048, .f32⟩
  | .hbm, ⟨4, _⟩ => ⟨S16x8192, .f32⟩
  | .hbm, ⟨5, _⟩ => ⟨S16x2048, .f32⟩
  | .hbm, ⟨6, _⟩ => ⟨S_, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16x8192, .f32⟩
  | .hbm, ⟨12, _⟩ => ⟨S_, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S16, .f32⟩
  | .local _ .vmem, ⟨0, _⟩ => ⟨S8x2048x3, .f32⟩
  | .local _ .vmem, ⟨1, _⟩ => ⟨S8x2048x3, .f32⟩
  | .local _ .vmem, ⟨2, _⟩ => ⟨S8x3x256, .f32⟩
  | .local _ .vmem, ⟨3, _⟩ => ⟨S8x3x256, .f32⟩
  | .local _ .vmem, ⟨4, _⟩ => ⟨S8x2048, .f32⟩
  | .local _ .vmem, ⟨5, _⟩ => ⟨S8x2048, .f32⟩
  | .local _ .vmem, ⟨6, _⟩ => ⟨S8x256, .f32⟩
  | .local _ .vmem, ⟨7, _⟩ => ⟨S8x256, .f32⟩
  | _, _ => ⟨S16x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_cst_7 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S16x8192x3_S16x3x8192_0_2_1 : S16x8192x3.Transposes [0, 2, 1] S16x3x8192
  inb_S8x2048_S8x2048_0_0 : ∀ a, (![0, 0] : Fin 2 → Nat) a + S8x2048.size a ≤ S8x2048.size a
  h_S8x2048 : 0 < S8x2048.numel
  inb_S8x256_S8x256_0_0 : ∀ a, (![0, 0] : Fin 2 → Nat) a + S8x256.size a ≤ S8x256.size a
  h_S8x256 : 0 < S8x256.numel
  inb_S8x3x256_S8x3x256_0_0_0 : ∀ a, (![0, 0, 0] : Fin 3 → Nat) a + S8x3x256.size a ≤ S8x3x256.size a
  h_S8x3x256 : 0 < S8x3x256.numel
  shapeCasts_S8x3x256_S8x3x256 : S8x3x256.ShapeCasts S8x3x256
  inb_S8x2048x3_S8x256x3_0_0_0 : ∀ a, (![0, 0, 0] : Fin 3 → Nat) a + S8x256x3.size a ≤ S8x2048x3.size a
  h_S8x256x3 : 0 < S8x256x3.numel
  slices_S8x256x3_o0_0_0_S8x256x1 : S8x256x3.Slices ![0, 0, 0] S8x256x1
  slices_S8x3x256_o0_0_0_S8x1x256 : S8x3x256.Slices ![0, 0, 0] S8x1x256
  broadcasts_S8x256x1_S8x256x256 : S8x256x1.Broadcasts S8x256x256
  broadcasts_S8x1x256_S8x256x256 : S8x1x256.Broadcasts S8x256x256
  slices_S8x256x3_o0_0_1_S8x256x1 : S8x256x3.Slices ![0, 0, 1] S8x256x1
  slices_S8x3x256_o0_1_0_S8x1x256 : S8x3x256.Slices ![0, 1, 0] S8x1x256
  slices_S8x256x3_o0_0_2_S8x256x1 : S8x256x3.Slices ![0, 0, 2] S8x256x1
  slices_S8x3x256_o0_2_0_S8x1x256 : S8x3x256.Slices ![0, 2, 0] S8x1x256
  inb_S8x2048_S8x256_0_0 : ∀ a, (![0, 0] : Fin 2 → Nat) a + S8x256.size a ≤ S8x2048.size a
  shapeCasts_S8x256_S8x256 : S8x256.ShapeCasts S8x256
  reduces_S8x256x256_S8x256 : S8x256x256.Reduces [2] S8x256
  reduces_S8x256x256_S8x256_2 : S8x256x256.Reduces [1] S8x256
  inb_S8x2048x3_S8x256x3_0_256_0 : ∀ a, (![0, 256, 0] : Fin 3 → Nat) a + S8x256x3.size a ≤ S8x2048x3.size a
  inb_S8x2048_S8x256_0_256 : ∀ a, (![0, 256] : Fin 2 → Nat) a + S8x256.size a ≤ S8x2048.size a
  inb_S8x2048x3_S8x256x3_0_512_0 : ∀ a, (![0, 512, 0] : Fin 3 → Nat) a + S8x256x3.size a ≤ S8x2048x3.size a
  inb_S8x2048_S8x256_0_512 : ∀ a, (![0, 512] : Fin 2 → Nat) a + S8x256.size a ≤ S8x2048.size a
  inb_S8x2048x3_S8x256x3_0_768_0 : ∀ a, (![0, 768, 0] : Fin 3 → Nat) a + S8x256x3.size a ≤ S8x2048x3.size a
  inb_S8x2048_S8x256_0_768 : ∀ a, (![0, 768] : Fin 2 → Nat) a + S8x256.size a ≤ S8x2048.size a
  inb_S8x2048x3_S8x256x3_0_1024_0 : ∀ a, (![0, 1024, 0] : Fin 3 → Nat) a + S8x256x3.size a ≤ S8x2048x3.size a
  inb_S8x2048_S8x256_0_1024 : ∀ a, (![0, 1024] : Fin 2 → Nat) a + S8x256.size a ≤ S8x2048.size a
  inb_S8x2048x3_S8x256x3_0_1280_0 : ∀ a, (![0, 1280, 0] : Fin 3 → Nat) a + S8x256x3.size a ≤ S8x2048x3.size a
  inb_S8x2048_S8x256_0_1280 : ∀ a, (![0, 1280] : Fin 2 → Nat) a + S8x256.size a ≤ S8x2048.size a
  inb_S8x2048x3_S8x256x3_0_1536_0 : ∀ a, (![0, 1536, 0] : Fin 3 → Nat) a + S8x256x3.size a ≤ S8x2048x3.size a
  inb_S8x2048_S8x256_0_1536 : ∀ a, (![0, 1536] : Fin 2 → Nat) a + S8x256.size a ≤ S8x2048.size a
  inb_S8x2048x3_S8x256x3_0_1792_0 : ∀ a, (![0, 1792, 0] : Fin 3 → Nat) a + S8x256x3.size a ≤ S8x2048x3.size a
  inb_S8x2048_S8x256_0_1792 : ∀ a, (![0, 1792] : Fin 2 → Nat) a + S8x256.size a ≤ S8x2048.size a
  reducesTo_S16x2048_S16_d1 : S16x2048.ReducesTo [1] S16
  h_S_ : 0 < S_.numel
  bcast_S_S16 : S_.BroadcastsInDim S16 (![] : Fin 0 → Fin S16.rank)
  reducesTo_S16x8192_S16_d1 : S16x8192.ReducesTo [1] S16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x3.size a ≤ S16x2048x3.size a
  hwx0_0 : ∀ i : grid0.Coords, EltTy.bits .f32 = 32 ∨ (Rect.block (s := S16x2048x3) S8x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x256.size a ≤ S16x3x8192.size a
  hwx0_1 : ∀ i : grid0.Coords, EltTy.bits .f32 = 32 ∨ (Rect.block (s := S16x3x8192) S8x3x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S16x2048.size a
  hwx0_2 : ∀ i : grid0.Coords, EltTy.bits .f32 = 32 ∨ (Rect.block (s := S16x2048) S8x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S16x8192.size a
  hwx0_3 : ∀ i : grid0.Coords, EltTy.bits .f32 = 32 ∨ (Rect.block (s := S16x8192) S8x256.size (cc0_transform_3 i) (hinb0_3 i)).WholeWords (EltTy.packing .f32)

variable [Facts₀]

abbrev win0_0 : Pipeline.Window sig grid0 :=
  Pipeline.Window.ofSpec (Memref.whole main_arg1) S8x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x3x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S8x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S8x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8192x3 : Shape := ⟨3, ![16, 8192, 3]⟩
abbrev S16x2048x3 : Shape := ⟨3, ![16, 2048, 3]⟩
abbrev S_ : Shape := ⟨0, ![]⟩
abbrev S16x2048 : Shape := ⟨2, ![16, 2048]⟩
abbrev S16x8192 : Shape := ⟨2, ![16, 8192]⟩
abbrev S16x2048x8192 : Shape := ⟨3, ![16, 2048, 8192]⟩
abbrev S16x2048x1 : Shape := ⟨3, ![16, 2048, 1]⟩
abbrev S16x1x8192 : Shape := ⟨3, ![16, 1, 8192]⟩
abbrev S16 : Shape := ⟨1, ![16]⟩

abbrev nBuf : Space → Nat
  | .hbm => 52
  | .vmem => 0
  | .smem => 0
  | _ => 0

abbrev bufTy : (tb : Table) → Fin (tcTables nBuf tb) → BufTy
  | .hbm, ⟨0, _⟩ => ⟨S16x8192x3, .f32⟩
  | .hbm, ⟨1, _⟩ => ⟨S16x2048x3, .f32⟩
  | .hbm, ⟨2, _⟩ => ⟨S16x2048x3, .f32⟩
  | .hbm, ⟨3, _⟩ => ⟨S_, .f32⟩
  | .hbm, ⟨4, _⟩ => ⟨S16x2048, .f32⟩
  | .hbm, ⟨5, _⟩ => ⟨S16x8192x3, .f32⟩
  | .hbm, ⟨6, _⟩ => ⟨S_, .f32⟩
  | .hbm, ⟨7, _⟩ => ⟨S16x8192, .f32⟩
  | .hbm, ⟨8, _⟩ => ⟨S16x2048x8192, .f32⟩
  | .hbm, ⟨9, _⟩ => ⟨S16x2048x1, .f32⟩
  | .hbm, ⟨10, _⟩ => ⟨S16x1x8192, .f32⟩
  | .hbm, ⟨11, _⟩ => ⟨S16x2048x8192, .f32⟩
  | .hbm, ⟨12, _⟩ => ⟨S16x2048x8192, .f32⟩
  | .hbm, ⟨13, _⟩ => ⟨S16x2048x8192, .f32⟩
  | .hbm, ⟨14, _⟩ => ⟨S_, .f32⟩
  | .hbm, ⟨15, _⟩ => ⟨S16x2048x8192, .f32⟩
  | .hbm, ⟨16, _⟩ => ⟨S16x2048x8192, .f32⟩
  | .hbm, ⟨17, _⟩ => ⟨S16x2048x8192, .f32⟩
  | .hbm, ⟨18, _⟩ => ⟨S_, .f32⟩
  | .hbm, ⟨19, _⟩ => ⟨S16x2048x8192, .f32⟩
  | .hbm, ⟨20, _⟩ => ⟨S16x2048x8192, .f32⟩
  | .hbm, ⟨21, _⟩ => ⟨S_, .f32⟩
  | .hbm, ⟨22, _⟩ => ⟨S16x2048, .f32⟩
  | .hbm, ⟨23, _⟩ => ⟨S_, .f32⟩
  | .hbm, ⟨24, _⟩ => ⟨S16x8192, .f32⟩
  | .hbm, ⟨25, _⟩ => ⟨S16x2048, .f32⟩
  | .hbm, ⟨26, _⟩ => ⟨S_, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S16x8192, .f32⟩
  | .hbm, ⟨32, _⟩ => ⟨S_, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S16, .f32⟩
  | _, _ => ⟨S16x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩
abbrev main_v27 : Ref sig .tc := ⟨.hbm, 40, rfl⟩
abbrev main_cst_10 : Ref sig .tc := ⟨.hbm, 41, rfl⟩
abbrev main_v28 : Ref sig .tc := ⟨.hbm, 42, rfl⟩
abbrev main_cst_11 : Ref sig .tc := ⟨.hbm, 43, rfl⟩
abbrev main_v29 : Ref sig .tc := ⟨.hbm, 44, rfl⟩
abbrev main_v30 : Ref sig .tc := ⟨.hbm, 45, rfl⟩
abbrev main_cst_12 : Ref sig .tc := ⟨.hbm, 46, rfl⟩
abbrev main_v31 : Ref sig .tc := ⟨.hbm, 47, rfl⟩
abbrev main_cst_13 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  reducesTo_S16x2048x3_S16x2048_d2 : S16x2048x3.ReducesTo [2] S16x2048
  h_S_ : 0 < S_.numel
  reducesTo_S16x8192x3_S16x8192_d2 : S16x8192x3.ReducesTo [2] S16x8192
  bcast_S16x2048_S16x2048x1_0_1 : S16x2048.BroadcastsInDim S16x2048x1 (![0, 1] : Fin 2 → Fin S16x2048x1.rank)
  bcast_S16x8192_S16x1x8192_0_2 : S16x8192.BroadcastsInDim S16x1x8192 (![0, 2] : Fin 2 → Fin S16x1x8192.rank)
  bcast_S16x2048x1_S16x2048x8192_0_1_2 : S16x2048x1.BroadcastsInDim S16x2048x8192 (![0, 1, 2] : Fin 3 → Fin S16x2048x8192.rank)
  bcast_S16x1x8192_S16x2048x8192_0_1_2 : S16x1x8192.BroadcastsInDim S16x2048x8192 (![0, 1, 2] : Fin 3 → Fin S16x2048x8192.rank)
  bcast_S_S16x2048x8192 : S_.BroadcastsInDim S16x2048x8192 (![] : Fin 0 → Fin S16x2048x8192.rank)
  reducesTo_S16x2048x8192_S16x2048_d2 : S16x2048x8192.ReducesTo [2] S16x2048
  reducesTo_S16x2048x8192_S16x8192_d1 : S16x2048x8192.ReducesTo [1] S16x8192
  reducesTo_S16x2048_S16_d1 : S16x2048.ReducesTo [1] S16
  bcast_S_S16 : S_.BroadcastsInDim S16 (![] : Fin 0 → Fin S16.rank)
  reducesTo_S16x8192_S16_d1 : S16x8192.ReducesTo [1] S16
  dot_S16x2048x3_S16x8192x3_S16x2048x8192_2_2_1_1_0_0_wf : DotDims.WF S16x2048x3 S16x8192x3 S16x2048x8192 [2] [2] [1] [1] [0] [0]

variable [Facts₀]

def dot_S16x2048x3_S16x8192x3_S16x2048x8192_2_2_1_1_0_0 : DotDims S16x2048x3 S16x8192x3 S16x2048x8192 where
  lhsContracting := [2]
  rhsContracting := [2]
  lhsNonContracting := [1]
  rhsNonContracting := [1]
  lhsBatch := [0]
  rhsBatch := [0]
  wf := dot_S16x2048x3_S16x8192x3_S16x2048x8192_2_2_1_1_0_0_wf

class Facts : Prop extends Facts₀ where

variable [Facts]
-- ==== Proof.LibMinFold.lean ====
/-
  Minimum reductions from +inf on the extended reals, carried by their universal property.

  `minOver f` is the fold of min from the top element over a finite family; x is below it exactly when x is below
  every member (`le_minOver_iff`), and two extended reals with the same lower bounds are equal (`eq_of_le_iff`),
  so a minimum taken in blocks, in chunks or in another order is compared with the plain one without any algebra of
  folds. The f32 pattern 0x7F800000 denotes the top element (`ofBits_inf`). A kernel's `vector.multi_reduction
  <minimumf>` over ONE axis, read at a reduced index, is the fold of min from the accumulator's value over that axis's
  coordinates (`multiReduction_minimumf_single`; the library states this for the maximum), and from the +inf pattern
  it is `minOver` of the source along the axis (`kernelMin_apply`); the host's `stablehlo.reduce` with a minimum body
  from a +inf constant likewise (`hostMin_apply`).
  Imports Mathlib, PureOps/Ideal/Laws and PureOps/Reduce only.
-/
import Mathlib
import Idealize.ShloMosaic.PureOps.Ideal
import Idealize.ShloMosaic.PureOps.Ideal.Laws
import Idealize.ShloMosaic.PureOps.Reduce

noncomputable section

namespace Cert.LibMinFold

open Idealize.ShloMosaic

/-- The pattern of +inf denotes the top of the extended reals. -/
theorem ofBits_inf : Ideal.ofBits .f32 0x7F800000#32 = (⊤ : EReal) := by
  simp [Ideal.ofBits, Ideal.ieee]

/-- The minimum from +inf of a finite family. -/
def minOver {ι : Type} [Fintype ι] (f : ι → EReal) : EReal := Finset.univ.fold min ⊤ f

/-- Its universal property. -/
theorem le_minOver_iff {ι : Type} [Fintype ι] (f : ι → EReal) (x : EReal) : x ≤ minOver f ↔ ∀ i, x ≤ f i := by
  unfold minOver
  rw [Finset.le_fold_min]
  simp

/-- Two extended reals with the same lower bounds are equal. -/
theorem eq_of_le_iff {a b : EReal} (h : ∀ x : EReal, x ≤ a ↔ x ≤ b) : a = b :=
  le_antisymm ((h a).mp le_rfl) ((h b).mpr le_rfl)

/-- A minimum reduction over one axis from the accumulator's value, at a reduced index: the fold of min over that
    axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- From the +inf pattern it is the minimum of the source along the axis. -/
theorem kernelMin_apply {s t : Shape} {a : Fin s.rank} (src : FVec Ideal s .f32) (h : s.Reduces [a] t)
    (hφ : FKind.Formats .f32) (hacc : (0x7F800000#32 : BitVec 32) = FKind.minimumf.neutral .f32 hφ) (j : t.Idx) :
    multiReduction .minimumf [a] t src 0x7F800000#32 h hφ hacc j = minOver fun k : Fin (s.size a) => src (h.lift j k) := by
  refine (multiReduction_minimumf_single src 0x7F800000#32 h hφ hacc j).trans ?_
  unfold minOver
  exact congrArg (fun z => Finset.fold min z (src ∘ h.lift j) Finset.univ) ofBits_inf

/-- The host's reduce with a minimum body over one axis from a +inf constant, at a reduced index, is the minimum of
    the operand along the axis. -/
theorem hostMin_apply {s t : Shape} {a : Fin s.rank} (x : s.Idx → Ideal .f32) (h' : s.ReducesTo [a] t) (h : s.Reduces [a] t)
    (hu : 0 < (⟨0, ![]⟩ : Shape).numel) (j : t.Idx) :
    Host.reduce FloatOps.minimumf x (constant (F := Ideal) (⟨0, ![]⟩ : Shape) .f32 0x7F800000#32) h' hu j
      = minOver fun k : Fin (s.size a) => x (h.lift j k) := by
  rw [Host.reduce_eq_fold_single FloatOps.minimumf x _ h' h hu]
  unfold minOver
  exact congrArg (fun z => Finset.fold min z (x ∘ h.lift j) Finset.univ) ofBits_inf

end Cert.LibMinFold

end
-- ==== Proof.Spec.lean ====
/-
  The mathematics both programs share, away from either program.

  For two points a, b of R^3 the squared distance is written two ways: as the sum of the squared coordinate
  differences, and as |a|^2 + |b|^2 - 2 a.b floored at zero. Over the reals the two agree (the floor is
  idle: a sum of squares is not negative); over the extended reals the identity needs the coordinates real,
  since it distributes products over differences.

  A minimum from +inf over a finite family is carried by its universal property: x is below it exactly when
  x is below every member (the module LibMinFold).

  The two results both programs reduce to, as functions of the sample array (16 x 2048 x 3) and the reference
  array (16 x 8192 x 3): for each sample the squared distance to its nearest reference point, and for each
  reference point the squared distance to its nearest sample.
-/
import Mathlib
import Idealize.ShloMosaic.PureOps.Ideal
import Idealize.ShloMosaic.PureOps.Ideal.Laws
import Idealize.ShloMosaic.Lib.ValueIdx
import proofs.«140802_j28621662060808_2_alg».proof.Proof.LibMinFold

noncomputable section

namespace Cert.Chamfer

open Idealize.ShloMosaic

/-- The pattern of 2.0 denotes the real 2. -/
theorem ofBits_two : Ideal.ofBits .f32 0x40000000#32 = ((2 : ℝ) : EReal) := by
  simp [Ideal.ofBits, Ideal.ieee, -EReal.coe_mul]; norm_num

export Cert.LibMinFold (ofBits_inf minOver le_minOver_iff eq_of_le_iff multiReduction_minimumf_single)

/-- The squared distance as the sum of the three squared coordinate differences, grouped from the left. -/
def sqd (a0 a1 a2 b0 b1 b2 : EReal) : EReal :=
  (a0 - b0) * (a0 - b0) + (a1 - b1) * (a1 - b1) + (a2 - b2) * (a2 - b2)

/-- For real coordinates, |a|^2 + |b|^2 - 2 a.b floored at zero is the sum of the squared differences. -/
theorem expanded_eq_sqd (a b : Fin 3 → ℝ) :
    max (((0 : EReal) + ∑ k : Fin 3, ((a k : ℝ) : EReal) * ((a k : ℝ) : EReal))
          + ((0 : EReal) + ∑ k : Fin 3, ((b k : ℝ) : EReal) * ((b k : ℝ) : EReal))
          - ((2 : ℝ) : EReal) * ∑ k : Fin 3, ((a k : ℝ) : EReal) * ((b k : ℝ) : EReal)) 0
      = sqd (a 0) (a 1) (a 2) (b 0) (b 1) (b 2) := by
  unfold sqd
  rw [Fin.sum_univ_three, Fin.sum_univ_three, Fin.sum_univ_three]
  simp only [zero_add, ← EReal.coe_mul, ← EReal.coe_add, ← EReal.coe_sub]
  rw [← EReal.coe_zero, ← (EReal.coe_strictMono.monotone).map_max]
  refine congrArg _ ?_
  have h : a 0 * a 0 + a 1 * a 1 + a 2 * a 2 + (b 0 * b 0 + b 1 * b 1 + b 2 * b 2)
        - 2 * (a 0 * b 0 + a 1 * b 1 + a 2 * b 2)
      = (a 0 - b 0) * (a 0 - b 0) + (a 1 - b 1) * (a 1 - b 1) + (a 2 - b 2) * (a 2 - b 2) := by ring
  rw [h]
  exact max_eq_left (add_nonneg (add_nonneg (mul_self_nonneg _) (mul_self_nonneg _)) (mul_self_nonneg _))

/-! ## The two arrays of nearest squared distances -/

open Idealize.ShloMosaic.ValueIdx

/-- The squared distance from sample n to reference point q in batch row B. -/
def sqDist (sa : (⟨3, ![16, 2048, 3]⟩ : Shape).Idx → EReal) (rf : (⟨3, ![16, 8192, 3]⟩ : Shape).Idx → EReal)
    (B : Fin 16) (n : Fin 2048) (q : Fin 8192) : EReal :=
  sqd (sa (ix3 B n 0)) (sa (ix3 B n 1)) (sa (ix3 B n 2)) (rf (ix3 B q 0)) (rf (ix3 B q 1)) (rf (ix3 B q 2))

/-- For each sample, the squared distance to the nearest reference point. -/
def nearestRef (sa : (⟨3, ![16, 2048, 3]⟩ : Shape).Idx → EReal) (rf : (⟨3, ![16, 8192, 3]⟩ : Shape).Idx → EReal) :
    (⟨2, ![16, 2048]⟩ : Shape).Idx → EReal :=
  fun i => minOver fun q : Fin 8192 => sqDist sa rf (i 0) (i 1) q

/-- For each reference point, the squared distance to the nearest sample. -/
def nearestSamp (sa : (⟨3, ![16, 2048, 3]⟩ : Shape).Idx → EReal) (rf : (⟨3, ![16, 8192, 3]⟩ : Shape).Idx → EReal) :
    (⟨2, ![16, 8192]⟩ : Shape).Idx → EReal :=
  fun i => minOver fun n : Fin 2048 => sqDist sa rf (i 0) n (i 1)

end Cert.Chamfer

end
-- ==== Proof.Chunk.lean ====
/-
  One chunk of the body, as three functions of the blocks it loads.

  The body walks the 2048 sample rows of its block in eight chunks of 256. For a chunk s (8 x 256 x 3: batch,
  sample, coordinate) and the reference block r (8 x 3 x 256: batch, coordinate, reference point) it forms the
  8 x 256 x 256 array of squared distances (sqDiff), lowers a running 8 x 256 row of per-sample minima by the
  minimum over the reference axis (rowStep), and lowers a running 8 x 256 row of per-reference-point minima by
  the minimum over the sample axis (colStep). Read at an index on the extended reals these are the sum of three
  squared differences and two minima from +inf.
-/
import proofs.«140802_j28621662060808_2_alg».proof.Proof.Gen.KernelIdeal.Skeleton
import proofs.«140802_j28621662060808_2_alg».proof.Proof.Spec
import Idealize.ShloMosaic.Lib.Pipeline.Value
import Idealize.ShloMosaic.Lib.ValueIdx
import Idealize.ShloMosaic.PureOps.Ideal.Laws

noncomputable section

namespace Cert.KernelIdeal.Chunk

open Idealize.ShloMosaic Idealize.SL.Sem Idealize.ShloMosaic.ValueIdx
open Cert.KernelIdeal Cert.KernelIdeal.Gen Cert.Chamfer

variable {F : FTy → Type} [FloatOps F]

/-- Coordinate d of the samples minus coordinate d of the reference points, over the chunk. -/
def diff0 (r : FVec F S8x3x256 .f32) (s : Vec F S8x256x3 .f32) : FVec F S8x256x256 .f32 :=
  subf (broadcastTo S8x256x256 (extractStridedSlice S8x256x1 ![0, 0, 0] s slices_S8x256x3_o0_0_0_S8x256x1) broadcasts_S8x256x1_S8x256x256)
    (broadcastTo S8x256x256 (extractStridedSlice S8x1x256 ![0, 0, 0] r slices_S8x3x256_o0_0_0_S8x1x256) broadcasts_S8x1x256_S8x256x256)
def diff1 (r : FVec F S8x3x256 .f32) (s : Vec F S8x256x3 .f32) : FVec F S8x256x256 .f32 :=
  subf (broadcastTo S8x256x256 (extractStridedSlice S8x256x1 ![0, 0, 1] s slices_S8x256x3_o0_0_1_S8x256x1) broadcasts_S8x256x1_S8x256x256)
    (broadcastTo S8x256x256 (extractStridedSlice S8x1x256 ![0, 1, 0] r slices_S8x3x256_o0_1_0_S8x1x256) broadcasts_S8x1x256_S8x256x256)
def diff2 (r : FVec F S8x3x256 .f32) (s : Vec F S8x256x3 .f32) : FVec F S8x256x256 .f32 :=
  subf (broadcastTo S8x256x256 (extractStridedSlice S8x256x1 ![0, 0, 2] s slices_S8x256x3_o0_0_2_S8x256x1) broadcasts_S8x256x1_S8x256x256)
    (broadcastTo S8x256x256 (extractStridedSlice S8x1x256 ![0, 2, 0] r slices_S8x3x256_o0_2_0_S8x1x256) broadcasts_S8x1x256_S8x256x256)

/-- The chunk's squared distances: (d0^2 + d1^2) + d2^2. -/
def sqDiff (r : FVec F S8x3x256 .f32) (s : Vec F S8x256x3 .f32) : FVec F S8x256x256 .f32 :=
  addf (addf (mulf (diff0 r s) (diff0 r s)) (mulf (diff1 r s) (diff1 r s))) (mulf (diff2 r s) (diff2 r s))

/-- The running per-sample minima lowered by the chunk's minimum over the reference axis. -/
def rowStep (r : FVec F S8x3x256 .f32) (s : Vec F S8x256x3 .f32) (cur : Vec F S8x256 .f32) : FVec F S8x256 .f32 :=
  minimumf (shapeCast S8x256 cur shapeCasts_S8x256_S8x256)
    (multiReduction .minimumf [2] S8x256 (sqDiff r s) 0x7F800000#32 reduces_S8x256x256_S8x256 (.inl rfl) rfl)

/-- The running per-reference-point minima lowered by the chunk's minimum over the sample axis. -/
def colStep (r : FVec F S8x3x256 .f32) (s : Vec F S8x256x3 .f32) (cur : Vec F S8x256 .f32) : FVec F S8x256 .f32 :=
  minimumf (shapeCast S8x256 cur shapeCasts_S8x256_S8x256)
    (multiReduction .minimumf [1] S8x256 (sqDiff r s) 0x7F800000#32 reduces_S8x256x256_S8x256_2 (.inl rfl) rfl)

/-! ## Read at an index, on the extended reals -/

section Layout
variable {α : Type}

theorem bcast_col (v : S8x256x1.Idx → α) (h : S8x256x1.Broadcasts S8x256x256) (b : Fin 8) (j k : Fin 256) :
    broadcastTo S8x256x256 v h (ix3 b j k) = v (ix3 b j (0 : Fin 1)) :=
  broadcastTo_apply v h (ix3 b j k) (ix3 b j (0 : Fin 1)) fun ax => by
    match ax with
    | ⟨0, _⟩ => rfl
    | ⟨1, _⟩ => rfl
    | ⟨2, _⟩ => rfl

theorem bcast_row (v : S8x1x256.Idx → α) (h : S8x1x256.Broadcasts S8x256x256) (b : Fin 8) (j k : Fin 256) :
    broadcastTo S8x256x256 v h (ix3 b j k) = v (ix3 b (0 : Fin 1) k) :=
  broadcastTo_apply v h (ix3 b j k) (ix3 b (0 : Fin 1) k) fun ax => by
    match ax with
    | ⟨0, _⟩ => rfl
    | ⟨1, _⟩ => rfl
    | ⟨2, _⟩ => rfl

theorem slice_col (s : S8x256x3.Idx → α) (d : Fin 3) (off : Fin 3 → Nat) (hoff : off = ![0, 0, d.val])
    (h : S8x256x3.Slices off S8x256x1) (b : Fin 8) (j : Fin 256) :
    extractStridedSlice S8x256x1 off s h (ix3 b j (0 : Fin 1)) = s (ix3 b j d) := by
  subst hoff
  refine extractStridedSlice_apply _ s h _ (ix3 b j d) fun ax => ?_
  match ax with
  | ⟨0, _⟩ => exact (Nat.zero_add _).symm
  | ⟨1, _⟩ => exact (Nat.zero_add _).symm
  | ⟨2, _⟩ => rfl

theorem slice_row (r : S8x3x256.Idx → α) (d : Fin 3) (off : Fin 3 → Nat) (hoff : off = ![0, d.val, 0])
    (h : S8x3x256.Slices off S8x1x256) (b : Fin 8) (k : Fin 256) :
    extractStridedSlice S8x1x256 off r h (ix3 b (0 : Fin 1) k) = r (ix3 b d k) := by
  subst hoff
  refine extractStridedSlice_apply _ r h _ (ix3 b d k) fun ax => ?_
  match ax with
  | ⟨0, _⟩ => exact (Nat.zero_add _).symm
  | ⟨1, _⟩ => rfl
  | ⟨2, _⟩ => exact (Nat.zero_add _).symm

end Layout

/-- The chunk's squared distance at (batch b, sample j, reference point k). -/
theorem sqDiff_apply (r : FVec Ideal S8x3x256 .f32) (s : Vec Ideal S8x256x3 .f32) (b : Fin 8) (j k : Fin 256) :
    sqDiff r s (ix3 b j k)
      = sqd (s (ix3 b j 0)) (s (ix3 b j 1)) (s (ix3 b j 2)) (r (ix3 b 0 k)) (r (ix3 b 1 k)) (r (ix3 b 2 k)) := by
  unfold sqDiff diff0 diff1 diff2 sqd
  simp only [addf_apply, mulf_apply, subf_apply, bcast_col, bcast_row]
  rw [slice_col s 0 ![0, 0, 0] rfl, slice_col s 1 ![0, 0, 1] rfl, slice_col s 2 ![0, 0, 2] rfl,
    slice_row r 0 ![0, 0, 0] rfl, slice_row r 1 ![0, 1, 0] rfl, slice_row r 2 ![0, 2, 0] rfl]

theorem lift_ref (h : S8x256x256.Reduces [2] S8x256) (b : Fin 8) (j : Fin 256) (k : Fin (S8x256x256.size 2)) :
    h.lift (ix2 b j) k = ix3 b j (⟨k.val, k.isLt⟩ : Fin 256) := by
  funext c; apply Fin.ext
  fin_cases c <;> rfl

theorem lift_samp (h : S8x256x256.Reduces [1] S8x256) (b : Fin 8) (k : Fin 256) (j : Fin (S8x256x256.size 1)) :
    h.lift (ix2 b k) j = ix3 b (⟨j.val, j.isLt⟩ : Fin 256) k := by
  funext c; apply Fin.ext
  fin_cases c <;> rfl

/-- The lowered per-sample minima at (b, j): the running value against the fold of min over the reference axis. -/
theorem rowStep_apply (r : FVec Ideal S8x3x256 .f32) (s : Vec Ideal S8x256x3 .f32) (cur : Vec Ideal S8x256 .f32)
    (b : Fin 8) (j : Fin 256) :
    rowStep r s cur (ix2 b j) = min (cur (ix2 b j))
      ((Finset.univ : Finset (Fin (S8x256x256.size 2))).fold min (FloatOps.ofBits (F := Ideal) .f32 0x7F800000#32)
        (sqDiff r s ∘ reduces_S8x256x256_S8x256.lift (ix2 b j))) :=
  congrArg₂ min (congrFun (shapeCast_self cur shapeCasts_S8x256_S8x256) (ix2 b j))
    (multiReduction_minimumf_single (sqDiff r s) 0x7F800000#32 reduces_S8x256x256_S8x256 (.inl rfl) rfl (ix2 b j))

/-- The lowered per-reference-point minima at (b, k): the running value against the fold of min over the sample axis. -/
theorem colStep_apply (r : FVec Ideal S8x3x256 .f32) (s : Vec Ideal S8x256x3 .f32) (cur : Vec Ideal S8x256 .f32)
    (b : Fin 8) (k : Fin 256) :
    colStep r s cur (ix2 b k) = min (cur (ix2 b k))
      ((Finset.univ : Finset (Fin (S8x256x256.size 1))).fold min (FloatOps.ofBits (F := Ideal) .f32 0x7F800000#32)
        (sqDiff r s ∘ reduces_S8x256x256_S8x256_2.lift (ix2 b k))) :=
  congrArg₂ min (congrFun (shapeCast_self cur shapeCasts_S8x256_S8x256) (ix2 b k))
    (multiReduction_minimumf_single (sqDiff r s) 0x7F800000#32 reduces_S8x256x256_S8x256_2 (.inl rfl) rfl (ix2 b k))

/-- x is below the lowered per-sample minimum exactly when it is below the running one and below every squared
    distance from that sample to the block's reference points. -/
theorem le_rowStep_iff (r : FVec Ideal S8x3x256 .f32) (s : Vec Ideal S8x256x3 .f32) (cur : Vec Ideal S8x256 .f32)
    (b : Fin 8) (j : Fin 256) (x : EReal) :
    x ≤ rowStep r s cur (ix2 b j) ↔ x ≤ cur (ix2 b j) ∧ ∀ k : Fin 256, x ≤ sqDiff r s (ix3 b j k) := by
  rw [rowStep_apply, le_min_iff, Finset.le_fold_min]
  refine and_congr_right fun _ => ?_
  constructor
  · intro h k
    exact Eq.mp (congrArg (fun i => x ≤ sqDiff r s i) (lift_ref reduces_S8x256x256_S8x256 b j k)) (h.2 k (Finset.mem_univ _))
  · intro h
    refine ⟨?_, fun k _ => ?_⟩
    · rw [Ideal.ofBits_def, ofBits_inf]; exact le_top
    · exact Eq.mpr (congrArg (fun i => x ≤ sqDiff r s i) (lift_ref reduces_S8x256x256_S8x256 b j k)) (h _)

/-- x is below the lowered per-reference-point minimum exactly when it is below the running one and below every
    squared distance from the chunk's samples to that reference point. -/
theorem le_colStep_iff (r : FVec Ideal S8x3x256 .f32) (s : Vec Ideal S8x256x3 .f32) (cur : Vec Ideal S8x256 .f32)
    (b : Fin 8) (k : Fin 256) (x : EReal) :
    x ≤ colStep r s cur (ix2 b k) ↔ x ≤ cur (ix2 b k) ∧ ∀ j : Fin 256, x ≤ sqDiff r s (ix3 b j k) := by
  rw [colStep_apply, le_min_iff, Finset.le_fold_min]
  refine and_congr_right fun _ => ?_
  constructor
  · intro h j
    exact Eq.mp (congrArg (fun i => x ≤ sqDiff r s i) (lift_samp reduces_S8x256x256_S8x256_2 b k j)) (h.2 j (Finset.mem_univ _))
  · intro h
    refine ⟨?_, fun j _ => ?_⟩
    · rw [Ideal.ofBits_def, ofBits_inf]; exact le_top
    · exact Eq.mpr (congrArg (fun i => x ≤ sqDiff r s i) (lift_samp reduces_S8x256x256_S8x256_2 b k j)) (h _)

end Cert.KernelIdeal.Chunk

end
-- ==== Proof.Pieces.lean ====
/-
  What the body leaves in its two output blocks, as the chunks' functions.

  The body's stores into the 8 x 256 block of per-reference-point minima each cover the block, so the block ends at
  the last store's payload: the eight chunks' minima folded from +inf. Its stores into the 8 x 2048 block of
  per-sample minima are eight column blocks of 256, one per chunk, each lowering the columns it covers; at the first
  point of a batch group they follow a store of +inf over the whole row and read that back.
-/
import proofs.«140802_j28621662060808_2_alg».proof.Proof.Gen.KernelIdeal.Frame
import proofs.«140802_j28621662060808_2_alg».proof.Proof.Chunk
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen Cert.KernelIdeal.Chunk

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The sample block's eight chunks of 256 rows. -/
abbrev smp0 (x0 : Vec F S8x2048x3 .f32) : Vec F S8x256x3 .f32 := View.ld x0 (Rect.unit ![0, 0, 0] S8x256x3.size inb_S8x2048x3_S8x256x3_0_0_0)
abbrev smp1 (x0 : Vec F S8x2048x3 .f32) : Vec F S8x256x3 .f32 := View.ld x0 (Rect.unit ![0, 256, 0] S8x256x3.size inb_S8x2048x3_S8x256x3_0_256_0)
abbrev smp2 (x0 : Vec F S8x2048x3 .f32) : Vec F S8x256x3 .f32 := View.ld x0 (Rect.unit ![0, 512, 0] S8x256x3.size inb_S8x2048x3_S8x256x3_0_512_0)
abbrev smp3 (x0 : Vec F S8x2048x3 .f32) : Vec F S8x256x3 .f32 := View.ld x0 (Rect.unit ![0, 768, 0] S8x256x3.size inb_S8x2048x3_S8x256x3_0_768_0)
abbrev smp4 (x0 : Vec F S8x2048x3 .f32) : Vec F S8x256x3 .f32 := View.ld x0 (Rect.unit ![0, 1024, 0] S8x256x3.size inb_S8x2048x3_S8x256x3_0_1024_0)
abbrev smp5 (x0 : Vec F S8x2048x3 .f32) : Vec F S8x256x3 .f32 := View.ld x0 (Rect.unit ![0, 1280, 0] S8x256x3.size inb_S8x2048x3_S8x256x3_0_1280_0)
abbrev smp6 (x0 : Vec F S8x2048x3 .f32) : Vec F S8x256x3 .f32 := View.ld x0 (Rect.unit ![0, 1536, 0] S8x256x3.size inb_S8x2048x3_S8x256x3_0_1536_0)
abbrev smp7 (x0 : Vec F S8x2048x3 .f32) : Vec F S8x256x3 .f32 := View.ld x0 (Rect.unit ![0, 1792, 0] S8x256x3.size inb_S8x2048x3_S8x256x3_0_1792_0)

/-- The block of +inf a point starts its per-reference-point minima from. -/
abbrev infRow : FVec F S8x256 .f32 := broadcast S8x256 (Scalar.ofBits .f32 0x7F800000#32)

/-- The per-reference-point minima after the eight chunks, from +inf. -/
def colChain (r : FVec F S8x3x256 .f32) (x0 : Vec F S8x2048x3 .f32) : FVec F S8x256 .f32 :=
  colStep r (smp7 x0) (colStep r (smp6 x0) (colStep r (smp5 x0) (colStep r (smp4 x0) (colStep r (smp3 x0)
    (colStep r (smp2 x0) (colStep r (smp1 x0) (colStep r (smp0 x0) infRow)))))))

/-- The eight column blocks of the 8 x 2048 per-sample row, one per chunk. -/
abbrev col0 : Rect S8x2048 := Rect.unit ![0, 0] S8x256.size inb_S8x2048_S8x256_0_0
abbrev col1 : Rect S8x2048 := Rect.unit ![0, 256] S8x256.size inb_S8x2048_S8x256_0_256
abbrev col2 : Rect S8x2048 := Rect.unit ![0, 512] S8x256.size inb_S8x2048_S8x256_0_512
abbrev col3 : Rect S8x2048 := Rect.unit ![0, 768] S8x256.size inb_S8x2048_S8x256_0_768
abbrev col4 : Rect S8x2048 := Rect.unit ![0, 1024] S8x256.size inb_S8x2048_S8x256_0_1024
abbrev col5 : Rect S8x2048 := Rect.unit ![0, 1280] S8x256.size inb_S8x2048_S8x256_0_1280
abbrev col6 : Rect S8x2048 := Rect.unit ![0, 1536] S8x256.size inb_S8x2048_S8x256_0_1536
abbrev col7 : Rect S8x2048 := Rect.unit ![0, 1792] S8x256.size inb_S8x2048_S8x256_0_1792

/-- The block of +inf the first point of a batch group starts its per-sample minima from. -/
abbrev infBlock : FVec F S8x2048 .f32 := broadcast S8x2048 (Scalar.ofBits .f32 0x7F800000#32)

/-- The eight stores into the per-sample row, last made first: chunk c lowers columns 256c .. 256c+255 of the running
    row xo2 by its minima over the reference block. -/
def tiles (r : FVec F S8x3x256 .f32) (x0 : Vec F S8x2048x3 .f32) (xo2 : Vec F S8x2048 .f32) :
    List (View.Piece (Elt F) S8x2048 .f32) :=
  [⟨col7, rowStep r (smp7 x0) (View.ld xo2 col7)⟩, ⟨col6, rowStep r (smp6 x0) (View.ld xo2 col6)⟩,
   ⟨col5, rowStep r (smp5 x0) (View.ld xo2 col5)⟩, ⟨col4, rowStep r (smp4 x0) (View.ld xo2 col4)⟩,
   ⟨col3, rowStep r (smp3 x0) (View.ld xo2 col3)⟩, ⟨col2, rowStep r (smp2 x0) (View.ld xo2 col2)⟩,
   ⟨col1, rowStep r (smp1 x0) (View.ld xo2 col1)⟩, ⟨col0, rowStep r (smp0 x0) (View.ld xo2 col0)⟩]

/-- A load of a column block to the right of the last store's reads the earlier stores. -/
theorem readCov_skip {sig' : RefSig} {κ : Kind} {sp : Space} (v : View sig' κ sp S8x2048 .f32) (o1 o2 : Nat)
    (inb1 : ∀ a, (![0, o1] : Fin 2 → Nat) a + (![8, 256] : Fin 2 → Nat) a ≤ S8x2048.size a)
    (inb2 : ∀ a, (![0, o2] : Fin 2 → Nat) a + (![8, 256] : Fin 2 → Nat) a ≤ S8x2048.size a)
    (w : (Rect.unit (s := S8x2048) ![0, o1] ![8, 256] inb1).shape.Idx → Elt F .f32) (L : List (View.Piece (Elt F) S8x2048 .f32))
    (h : o1 + 256 ≤ o2) :
    v.readCov (⟨Rect.unit (s := S8x2048) ![0, o1] ![8, 256] inb1, w⟩ :: L) (Rect.unit (s := S8x2048) ![0, o2] ![8, 256] inb2).toLoadRect
      = v.readCov L (Rect.unit (s := S8x2048) ![0, o2] ![8, 256] inb2).toLoadRect :=
  View.readCov_cons_of_disjoint v _ L _ (Rect.unit_disjoint (inb := inb1) (inb' := inb2) (1 : Fin 2) (Or.inl h))

/-- A load of a column block of what one store of the whole row left reads that store's payload there. -/
theorem readCov_whole {sig' : RefSig} {κ : Kind} {sp : Space} (v : View sig' κ sp S8x2048 .f32) (o : Nat)
    (inb0 : ∀ a, (![0, 0] : Fin 2 → Nat) a + (![8, 2048] : Fin 2 → Nat) a ≤ S8x2048.size a)
    (inb : ∀ a, (![0, o] : Fin 2 → Nat) a + (![8, 256] : Fin 2 → Nat) a ≤ S8x2048.size a) (w : S8x2048.Idx → Elt F .f32) :
    v.readCov [(⟨Rect.unit (s := S8x2048) ![0, 0] ![8, 2048] inb0, w⟩ : View.Piece (Elt F) S8x2048 .f32)]
        (Rect.unit (s := S8x2048) ![0, o] ![8, 256] inb).toLoadRect
      = View.ld w (Rect.unit (s := S8x2048) ![0, o] ![8, 256] inb) := by
  rw [View.readCov_eq_canon']
  funext j
  exact congrFun (View.canon_unit_zero (S := S8x2048) hz2 inb0 w) _

variable (c : Dev nD) (i : grid0.Coords) (arg2 : Memref sig .tc .vmem S8x2048x3 .f32) (harg2 : arg2.IsWhole)
  (arg3 : Memref sig .tc .vmem S8x3x256 .f32) (harg3 : arg3.IsWhole) (arg4 : Memref sig .tc .vmem S8x2048 .f32)
  (harg4 : arg4.IsWhole) (arg5 : Memref sig .tc .vmem S8x256 .f32) (harg5 : arg5.IsWhole)
  (x0 : Vec F S8x2048x3 .f32) (x1 : Vec F S8x3x256 .f32)

/-- A later point of a batch group leaves, as per-reference-point minima, the eight chunks' minima from +inf. -/
theorem out3_B (hc0 : ¬cond0_0 i) (xo2 : Vec F S8x2048 .f32) :
    out0_B_3 c i arg2 harg2 arg3 harg3 arg4 harg4 arg5 harg5 hc0 x0 x1 xo2 = colChain (k0_pay6 x1) x0 := by
  unfold out0_B_3
  rw [View.read_writes_eq_canon _ _ _ (cover0_B_3 c i arg2 harg2 arg3 harg3 arg4 harg4 arg5 harg5 hc0 x0 x1 xo2)]
  unfold kernelRun0_B
  dsimp only
  sl_unfold_words
  rw [View.canon_cons_unit_zero (S := S8x256) hz2]
  simp only [View.readCov_cons_toLoadRect, View.readAt_eq_ld, harg2.read_unread, harg3.read_unread, View.ld_unit_zero (S := S8x3x256) hz3]
  rfl

/-- The first point of a batch group leaves the same. -/
theorem out3_A (hc0 : cond0_0 i) :
    out0_A_3 c i arg2 harg2 arg3 harg3 arg4 harg4 arg5 harg5 hc0 x0 x1 = colChain (k0_pay6 x1) x0 := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S8x256) hz2]
  simp only [View.readCov_cons_toLoadRect, View.readAt_eq_ld, harg2.read_unread, harg3.read_unread, View.ld_unit_zero (S := S8x3x256) hz3]
  rfl

/-- A later point of a batch group leaves, as per-sample minima, the eight column stores over the running row. -/
theorem out2_B (hc0 : ¬cond0_0 i) (xo2 : Vec F S8x2048 .f32) :
    out0_B_2 c i arg2 harg2 arg3 harg3 arg4 harg4 arg5 harg5 hc0 x0 x1 xo2 = View.canon (tiles (k0_pay6 x1) x0 xo2) := by
  unfold out0_B_2
  rw [View.read_writes_eq_canon _ _ _ (cover0_B_2 c i arg2 harg2 arg3 harg3 arg4 harg4 arg5 harg5 hc0 x0 x1 xo2)]
  unfold kernelRun0_B
  dsimp only
  sl_unfold_words
  simp only [View.readCov_cons_toLoadRect, View.readAt_eq_ld, harg2.read_unread, harg3.read_unread, harg4.read_unread, View.ld_unit_zero (S := S8x3x256) hz3]
  rfl

/-- The first point of a batch group leaves the eight column stores over a row of +inf, made after the store of
    that row. -/
theorem out2_A (hc0 : cond0_0 i) :
    out0_A_2 c i arg2 harg2 arg3 harg3 arg4 harg4 arg5 harg5 hc0 x0 x1
      = View.canon (tiles (k0_pay6 x1) x0 infBlock
          ++ [(⟨Rect.unit (s := S8x2048) ![0, 0] S8x2048.size inb_S8x2048_S8x2048_0_0, infBlock⟩ : View.Piece (Elt F) S8x2048 .f32)]) := by
  unfold out0_A_2
  rw [View.read_writes_eq_canon _ _ _ (cover0_A_2 c i arg2 harg2 arg3 harg3 arg4 harg4 arg5 harg5 hc0 x0 x1)]
  unfold kernelRun0_A
  dsimp only
  sl_unfold_words
  simp (disch := decide) only [readCov_skip, readCov_whole, View.readCov_cons_toLoadRect, View.readAt_eq_ld, harg2.read_unread, harg3.read_unread, View.ld_unit_zero (S := S8x3x256) hz3]
  rfl

end Cert.KernelIdeal.Pieces
end
-- ==== Proof.CaseValues.lean ====
/-
  The two output blocks after one grid point, index by index, on the extended reals.

  For the sample block x0 (8 x 2048 x 3) and the reference block x1 (8 x 3 x 256) write D(b, n, k) for the squared
  distance from sample n to reference point k in batch row b. Then after the point
    - the per-reference-point block holds at (b, k) the minimum over all 2048 samples n of D(b, n, k): the eight
      chunks of 256 samples cover them;
    - the per-sample block holds at (b, n) the smaller of what it held before and the minimum over the 256
      reference points k of D(b, n, k) — each of the eight column stores is that function on its columns.
-/
import proofs.«140802_j28621662060808_2_alg».proof.Proof.Pieces
import Idealize.ShloMosaic.Lib.Pipeline.CanonAppend

set_option maxRecDepth 16384

noncomputable section

open Idealize.ShloMosaic Idealize.ShloMosaic.TcCoe Idealize.SL.Sem Idealize.ShloMosaic.ValueIdx

namespace Cert.KernelIdeal.CaseValues

open Cert.KernelIdeal Cert.KernelIdeal.Gen Cert.KernelIdeal.Chunk Cert.KernelIdeal.Pieces Cert.Chamfer

/-- The squared distance from sample n to reference point k of the blocks, in batch row b. -/
def blockDist (x0 : Vec Ideal S8x2048x3 .f32) (x1 : FVec Ideal S8x3x256 .f32) (b : Fin 8) (n : Fin 2048) (k : Fin 256) : EReal :=
  sqd (x0 (ix3 b n 0)) (x0 (ix3 b n 1)) (x0 (ix3 b n 2)) (x1 (ix3 b 0 k)) (x1 (ix3 b 1 k)) (x1 (ix3 b 2 k))

/-- Row j of the chunk of samples that starts at row o is row o + j of the block. -/
theorem ld_rows (x0 : Vec Ideal S8x2048x3 .f32) (o : Nat)
    (inb : ∀ a, (![0, o, 0] : Fin 3 → Nat) a + S8x256x3.size a ≤ S8x2048x3.size a) (b : Fin 8) (j : Fin 256) (d : Fin 3)
    (B : Fin 8) (n : Fin 2048) (hB : B.val = b.val) (hn : n.val = o + j.val) :
    View.ld x0 (Rect.unit (s := S8x2048x3) ![0, o, 0] S8x256x3.size inb) (ix3 b j d) = x0 (ix3 B n d) :=
  congrArg x0 (funext fun a => Fin.ext (by
    match a with
    | ⟨0, _⟩ => show 0 + 1 * b.val = B.val; omega
    | ⟨1, _⟩ => show o + 1 * j.val = n.val; omega
    | ⟨2, _⟩ => show 0 + 1 * d.val = d.val; omega))

/-- The chunk's squared distances are the block's, at the chunk's rows. -/
theorem sqDiff_chunk (x0 : Vec Ideal S8x2048x3 .f32) (x1 : FVec Ideal S8x3x256 .f32) (o : Nat)
    (inb : ∀ a, (![0, o, 0] : Fin 3 → Nat) a + S8x256x3.size a ≤ S8x2048x3.size a) (b : Fin 8) (j k : Fin 256)
    (B : Fin 8) (n : Fin 2048) (hB : B = b) (hn : n.val = o + j.val) :
    sqDiff x1 (View.ld x0 (Rect.unit (s := S8x2048x3) ![0, o, 0] S8x256x3.size inb)) (ix3 b j k) = blockDist x0 x1 B n k := by
  subst hB
  rw [sqDiff_apply, ld_rows x0 o inb B j 0 B n rfl hn, ld_rows x0 o inb B j 1 B n rfl hn, ld_rows x0 o inb B j 2 B n rfl hn]
  rfl

/-- Every sample row lies in one of the eight chunks. -/
theorem forall_chunks (P : Fin 2048 → Prop)
    (h : ∀ (c : Fin 8) (j : Fin 256), P ⟨256 * c.val + j.val, by have := c.isLt; have := j.isLt; omega⟩) : ∀ n, P n := fun n => by
  have hn := n.isLt
  have := h ⟨n.val / 256, by omega⟩ ⟨n.val % 256, by omega⟩
  have e : (⟨256 * (n.val / 256) + n.val % 256, by omega⟩ : Fin 2048) = n := Fin.ext (by show 256 * (n.val / 256) + n.val % 256 = n.val; omega)
  rwa [e] at this

theorem le_inf_row (b : Fin 8) (k : Fin 256) (x : EReal) : x ≤ (infRow (F := Ideal)) (ix2 b k) := by
  show x ≤ Ideal.ofBits .f32 0x7F800000#32
  rw [ofBits_inf]; exact le_top

/-- x is below the per-reference-point block's entry (b, k) after the point exactly when it is below the squared
    distance from every one of the 2048 samples to that reference point. -/
theorem le_colChain_iff (x0 : Vec Ideal S8x2048x3 .f32) (x1 : FVec Ideal S8x3x256 .f32) (b : Fin 8) (k : Fin 256) (x : EReal) :
    x ≤ colChain x1 x0 (ix2 b k) ↔ ∀ n : Fin 2048, x ≤ blockDist x0 x1 b n k := by
  unfold colChain
  simp only [le_colStep_iff]
  constructor
  · rintro ⟨⟨⟨⟨⟨⟨⟨⟨_, h0⟩, h1⟩, h2⟩, h3⟩, h4⟩, h5⟩, h6⟩, h7⟩
    refine forall_chunks _ fun c j => ?_
    match c with
    | ⟨0, _⟩ => exact (sqDiff_chunk x0 x1 0 inb_S8x2048x3_S8x256x3_0_0_0 b j k b ⟨256 * 0 + j.val, by have := j.isLt; omega⟩ rfl (by show 256 * 0 + j.val = 0 + j.val; omega)) ▸ h0 j
    | ⟨1, _⟩ => exact (sqDiff_chunk x0 x1 256 inb_S8x2048x3_S8x256x3_0_256_0 b j k b ⟨256 * 1 + j.val, by have := j.isLt; omega⟩ rfl (by show 256 * 1 + j.val = 256 + j.val; omega)) ▸ h1 j
    | ⟨2, _⟩ => exact (sqDiff_chunk x0 x1 512 inb_S8x2048x3_S8x256x3_0_512_0 b j k b ⟨256 * 2 + j.val, by have := j.isLt; omega⟩ rfl (by show 256 * 2 + j.val = 512 + j.val; omega)) ▸ h2 j
    | ⟨3, _⟩ => exact (sqDiff_chunk x0 x1 768 inb_S8x2048x3_S8x256x3_0_768_0 b j k b ⟨256 * 3 + j.val, by have := j.isLt; omega⟩ rfl (by show 256 * 3 + j.val = 768 + j.val; omega)) ▸ h3 j
    | ⟨4, _⟩ => exact (sqDiff_chunk x0 x1 1024 inb_S8x2048x3_S8x256x3_0_1024_0 b j k b ⟨256 * 4 + j.val, by have := j.isLt; omega⟩ rfl (by show 256 * 4 + j.val = 1024 + j.val; omega)) ▸ h4 j
    | ⟨5, _⟩ => exact (sqDiff_chunk x0 x1 1280 inb_S8x2048x3_S8x256x3_0_1280_0 b j k b ⟨256 * 5 + j.val, by have := j.isLt; omega⟩ rfl (by show 256 * 5 + j.val = 1280 + j.val; omega)) ▸ h5 j
    | ⟨6, _⟩ => exact (sqDiff_chunk x0 x1 1536 inb_S8x2048x3_S8x256x3_0_1536_0 b j k b ⟨256 * 6 + j.val, by have := j.isLt; omega⟩ rfl (by show 256 * 6 + j.val = 1536 + j.val; omega)) ▸ h6 j
    | ⟨7, _⟩ => exact (sqDiff_chunk x0 x1 1792 inb_S8x2048x3_S8x256x3_0_1792_0 b j k b ⟨256 * 7 + j.val, by have := j.isLt; omega⟩ rfl (by show 256 * 7 + j.val = 1792 + j.val; omega)) ▸ h7 j
  · intro h
    refine ⟨⟨⟨⟨⟨⟨⟨⟨le_inf_row b k x, fun j => ?_⟩, fun j => ?_⟩, fun j => ?_⟩, fun j => ?_⟩, fun j => ?_⟩, fun j => ?_⟩, fun j => ?_⟩, fun j => ?_⟩
    · rw [sqDiff_chunk x0 x1 0 inb_S8x2048x3_S8x256x3_0_0_0 b j k b ⟨0 + j.val, by have := j.isLt; omega⟩ rfl rfl]; exact h _
    · rw [sqDiff_chunk x0 x1 256 inb_S8x2048x3_S8x256x3_0_256_0 b j k b ⟨256 + j.val, by have := j.isLt; omega⟩ rfl rfl]; exact h _
    · rw [sqDiff_chunk x0 x1 512 inb_S8x2048x3_S8x256x3_0_512_0 b j k b ⟨512 + j.val, by have := j.isLt; omega⟩ rfl rfl]; exact h _
    · rw [sqDiff_chunk x0 x1 768 inb_S8x2048x3_S8x256x3_0_768_0 b j k b ⟨768 + j.val, by have := j.isLt; omega⟩ rfl rfl]; exact h _
    · rw [sqDiff_chunk x0 x1 1024 inb_S8x2048x3_S8x256x3_0_1024_0 b j k b ⟨1024 + j.val, by have := j.isLt; omega⟩ rfl rfl]; exact h _
    · rw [sqDiff_chunk x0 x1 1280 inb_S8x2048x3_S8x256x3_0_1280_0 b j k b ⟨1280 + j.val, by have := j.isLt; omega⟩ rfl rfl]; exact h _
    · rw [sqDiff_chunk x0 x1 1536 inb_S8x2048x3_S8x256x3_0_1536_0 b j k b ⟨1536 + j.val, by have := j.isLt; omega⟩ rfl rfl]; exact h _
    · rw [sqDiff_chunk x0 x1 1792 inb_S8x2048x3_S8x256x3_0_1792_0 b j k b ⟨1792 + j.val, by have := j.isLt; omega⟩ rfl rfl]; exact h _

/-- What the per-sample block holds after a point that found xo2 in it: at (b, n) the smaller of xo2 there and the
    minimum over the block's 256 reference points of the squared distances from sample n. -/
def lowered (x1 : FVec Ideal S8x3x256 .f32) (x0 : Vec Ideal S8x2048x3 .f32) (xo2 : Vec Ideal S8x2048 .f32) : S8x2048.Idx → EReal :=
  fun i => min (xo2 i) (minOver fun k : Fin 256 => blockDist x0 x1 (i 0) (i 1) k)

/-- The store of the chunk that starts at row o is that function on the columns o .. o + 255. -/
theorem tile_agree (x1 : FVec Ideal S8x3x256 .f32) (x0 : Vec Ideal S8x2048x3 .f32) (xo2 : Vec Ideal S8x2048 .f32) (o : Nat)
    (inb3 : ∀ a, (![0, o, 0] : Fin 3 → Nat) a + S8x256x3.size a ≤ S8x2048x3.size a)
    (inb2 : ∀ a, (![0, o] : Fin 2 → Nat) a + S8x256.size a ≤ S8x2048.size a) (y : S8x256.Idx) :
    rowStep x1 (View.ld x0 (Rect.unit (s := S8x2048x3) ![0, o, 0] S8x256x3.size inb3))
        (View.ld xo2 (Rect.unit (s := S8x2048) ![0, o] S8x256.size inb2)) y
      = lowered x1 x0 xo2 ((Rect.unit (s := S8x2048) ![0, o] S8x256.size inb2).emb y) := by
  obtain ⟨b, j, rfl⟩ : ∃ (b : Fin 8) (j : Fin 256), y = ix2 b j := ⟨y 0, y 1, eq_ix2 y⟩
  rw [rowStep_apply]
  unfold lowered minOver
  refine congrArg₂ min rfl ?_
  rw [Ideal.ofBits_def, ofBits_inf]
  refine Finset.fold_congr fun k _ => ?_
  exact (congrArg (sqDiff x1 _) (lift_ref reduces_S8x256x256_S8x256 b j k)).trans
    (sqDiff_chunk x0 x1 o inb3 b j ⟨k.val, k.isLt⟩ _ _ (Fin.ext (by show 0 + 1 * b.val = b.val; omega)) (by show o + 1 * j.val = o + j.val; omega))

theorem tiles_agree (x1 : FVec Ideal S8x3x256 .f32) (x0 : Vec Ideal S8x2048x3 .f32) (xo2 : Vec Ideal S8x2048 .f32) :
    ∀ p ∈ tiles x1 x0 xo2, ∀ y : p.1.shape.Idx, p.2 y = lowered x1 x0 xo2 (p.1.emb y) := by
  intro p hp
  simp only [tiles, List.mem_cons, List.mem_nil_iff, or_false] at hp
  rcases hp with rfl | rfl | rfl | rfl | rfl | rfl | rfl | rfl
  · exact tile_agree x1 x0 xo2 1792 inb_S8x2048x3_S8x256x3_0_1792_0 inb_S8x2048_S8x256_0_1792
  · exact tile_agree x1 x0 xo2 1536 inb_S8x2048x3_S8x256x3_0_1536_0 inb_S8x2048_S8x256_0_1536
  · exact tile_agree x1 x0 xo2 1280 inb_S8x2048x3_S8x256x3_0_1280_0 inb_S8x2048_S8x256_0_1280
  · exact tile_agree x1 x0 xo2 1024 inb_S8x2048x3_S8x256x3_0_1024_0 inb_S8x2048_S8x256_0_1024
  · exact tile_agree x1 x0 xo2 768 inb_S8x2048x3_S8x256x3_0_768_0 inb_S8x2048_S8x256_0_768
  · exact tile_agree x1 x0 xo2 512 inb_S8x2048x3_S8x256x3_0_512_0 inb_S8x2048_S8x256_0_512
  · exact tile_agree x1 x0 xo2 256 inb_S8x2048x3_S8x256x3_0_256_0 inb_S8x2048_S8x256_0_256
  · exact tile_agree x1 x0 xo2 0 inb_S8x2048x3_S8x256x3_0_0_0 inb_S8x2048_S8x256_0_0

theorem mem_col (o : Nat) (inb : ∀ a, (![0, o] : Fin 2 → Nat) a + S8x256.size a ≤ S8x2048.size a) (y : S8x2048.Idx)
    (h : o ≤ (y 1).val ∧ (y 1).val < o + 256) : y ∈ (Rect.unit (s := S8x2048) ![0, o] S8x256.size inb).set :=
  Rect.mem_set_unit.mpr fun a => by
    match a with
    | ⟨0, _⟩ => exact ⟨Nat.zero_le _, by have h0 : (y 0).val < 8 := (y 0).isLt; show (y 0).val < 0 + 8; omega⟩
    | ⟨1, _⟩ => exact h

/-- The eight column blocks cover the row. -/
theorem tiles_cover (x1 : FVec Ideal S8x3x256 .f32) (x0 : Vec Ideal S8x2048x3 .f32) (xo2 : Vec Ideal S8x2048 .f32) (y : S8x2048.Idx) :
    ∃ p ∈ tiles x1 x0 xo2, y ∈ p.1.set := by
  have h1 : (y 1).val < 2048 := (y 1).isLt
  unfold tiles
  rcases (by omega : (y 1).val < 256 ∨ (256 ≤ (y 1).val ∧ (y 1).val < 512) ∨ (512 ≤ (y 1).val ∧ (y 1).val < 768)
      ∨ (768 ≤ (y 1).val ∧ (y 1).val < 1024) ∨ (1024 ≤ (y 1).val ∧ (y 1).val < 1280) ∨ (1280 ≤ (y 1).val ∧ (y 1).val < 1536)
      ∨ (1536 ≤ (y 1).val ∧ (y 1).val < 1792) ∨ 1792 ≤ (y 1).val) with h | h | h | h | h | h | h | h
  · exact ⟨_, .tail _ (.tail _ (.tail _ (.tail _ (.tail _ (.tail _ (.tail _ (.head _))))))), mem_col 0 inb_S8x2048_S8x256_0_0 y ⟨by omega, by omega⟩⟩
  · exact ⟨_, .tail _ (.tail _ (.tail _ (.tail _ (.tail _ (.tail _ (.head _)))))), mem_col 256 inb_S8x2048_S8x256_0_256 y ⟨by omega, by omega⟩⟩
  · exact ⟨_, .tail _ (.tail _ (.tail _ (.tail _ (.tail _ (.head _))))), mem_col 512 inb_S8x2048_S8x256_0_512 y ⟨by omega, by omega⟩⟩
  · exact ⟨_, .tail _ (.tail _ (.tail _ (.tail _ (.head _)))), mem_col 768 inb_S8x2048_S8x256_0_768 y ⟨by omega, by omega⟩⟩
  · exact ⟨_, .tail _ (.tail _ (.tail _ (.head _))), mem_col 1024 inb_S8x2048_S8x256_0_1024 y ⟨by omega, by omega⟩⟩
  · exact ⟨_, .tail _ (.tail _ (.head _)), mem_col 1280 inb_S8x2048_S8x256_0_1280 y ⟨by omega, by omega⟩⟩
  · exact ⟨_, .tail _ (.head _), mem_col 1536 inb_S8x2048_S8x256_0_1536 y ⟨by omega, by omega⟩⟩
  · exact ⟨_, .head _, mem_col 1792 inb_S8x2048_S8x256_0_1792 y ⟨by omega, by omega⟩⟩

variable (c : Dev nD) (i : grid0.Coords) (arg2 : Memref sig .tc .vmem S8x2048x3 .f32) (harg2 : arg2.IsWhole)
  (arg3 : Memref sig .tc .vmem S8x3x256 .f32) (harg3 : arg3.IsWhole) (arg4 : Memref sig .tc .vmem S8x2048 .f32)
  (harg4 : arg4.IsWhole) (arg5 : Memref sig .tc .vmem S8x256 .f32) (harg5 : arg5.IsWhole)
  (x0 : Vec Ideal S8x2048x3 .f32) (x1 : Vec Ideal S8x3x256 .f32)

theorem pay6_self : k0_pay6 (F := Ideal) x1 = x1 := shapeCast_self x1 _

/-- The eight column stores leave the lowered block, whatever was stored before them. -/
theorem canon_tiles (xo2 : Vec Ideal S8x2048 .f32) (L' : List (View.Piece (Elt Ideal) S8x2048 .f32)) :
    View.canon (tiles x1 x0 xo2 ++ L') = lowered x1 x0 xo2 :=
  funext fun y => View.canon_append_of_pieces (Val := Elt Ideal) (S := S8x2048) (e := .f32) (lowered x1 x0 xo2) L' (tiles x1 x0 xo2)
    (tiles_agree x1 x0 xo2) y (tiles_cover x1 x0 xo2 y)

/-- A later point of a batch group lowers the per-sample block it found. -/
theorem out2_B_eq (hc0 : ¬cond0_0 i) (xo2 : Vec Ideal S8x2048 .f32) :
    out0_B_2 c i arg2 harg2 arg3 harg3 arg4 harg4 arg5 harg5 hc0 x0 x1 xo2 = lowered x1 x0 xo2 := by
  rw [out2_B, pay6_self]
  exact (congrArg View.canon (List.append_nil _).symm).trans (canon_tiles x0 x1 xo2 [])

/-- The first point of a batch group lowers a block of +inf. -/
theorem out2_A_eq (hc0 : cond0_0 i) :
    out0_A_2 c i arg2 harg2 arg3 harg3 arg4 harg4 arg5 harg5 hc0 x0 x1 = lowered x1 x0 (infBlock (F := Ideal)) := by
  rw [out2_A, pay6_self]
  exact canon_tiles x0 x1 (infBlock (F := Ideal)) _

/-- Either kind of point leaves the eight chunks' minima in the per-reference-point block. -/
theorem out3_A_eq (hc0 : cond0_0 i) :
    out0_A_3 c i arg2 harg2 arg3 harg3 arg4 harg4 arg5 harg5 hc0 x0 x1 = colChain x1 x0 := by
  rw [out3_A, pay6_self]

theorem out3_B_eq (hc0 : ¬cond0_0 i) (xo2 : Vec Ideal S8x2048 .f32) :
    out0_B_3 c i arg2 harg2 arg3 harg3 arg4 harg4 arg5 harg5 hc0 x0 x1 xo2 = colChain x1 x0 := by
  rw [out3_B, pay6_self]

/-- So it holds the minima over all the block's samples. -/
theorem le_out3_A_iff (hc0 : cond0_0 i) (b : Fin 8) (k : Fin 256) (x : EReal) :
    x ≤ out0_A_3 c i arg2 harg2 arg3 harg3 arg4 harg4 arg5 harg5 hc0 x0 x1 (ix2 b k) ↔ ∀ n : Fin 2048, x ≤ blockDist x0 x1 b n k := by
  rw [out3_A, pay6_self]; exact le_colChain_iff x0 x1 b k x

theorem le_out3_B_iff (hc0 : ¬cond0_0 i) (xo2 : Vec Ideal S8x2048 .f32) (b : Fin 8) (k : Fin 256) (x : EReal) :
    x ≤ out0_B_3 c i arg2 harg2 arg3 harg3 arg4 harg4 arg5 harg5 hc0 x0 x1 xo2 (ix2 b k) ↔ ∀ n : Fin 2048, x ≤ blockDist x0 x1 b n k := by
  rw [out3_B, pay6_self]; exact le_colChain_iff x0 x1 b k x

end Cert.KernelIdeal.CaseValues

end
-- ==== Proof.Accum.lean ====
/-
  From grid points to the two result arrays of the kernel.

  Point t of the 2 x 32 grid works on batch rows 8 (t / 32) .. 8 (t / 32) + 7 and reference points
  256 (t mod 32) .. 256 (t mod 32) + 255: its sample block is those batch rows of the sample array, its reference
  block those rows and columns of the transposed reference array. The per-sample block is carried along the 32 points
  of a batch group: after point t it holds at (b, n) the greatest lower bound of the squared distances from sample n
  to the reference points below 256 (t mod 32 + 1) — by induction on the point, the first point of a group starting
  from +inf — and it is written back after the group's last point, when that bound runs over all 8192 reference points.
  The per-reference-point block is written back after every point and holds the minima over all samples. Both sets of
  blocks tile their arrays.
-/
import proofs.«140802_j28621662060808_2_alg».proof.Proof.CaseValues
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Chunk Cert.KernelIdeal.Pieces Cert.KernelIdeal.CaseValues Cert.Chamfer

variable (m : (ℓ : Loc nD τ sig) → Buf (Elt Ideal) ℓ)

/-- The sample array and the reference array as launched. -/
abbrev sa (c : Dev nD) : S16x2048x3.Idx → EReal := m ((c : Thread nD τ).loc main_arg1)
abbrev rf (c : Dev nD) : S16x8192x3.Idx → EReal := m ((c : Thread nD τ).loc main_arg0)

/-- The region finds the transposed reference array in its second window's array. -/
theorem V_reft (c : Dev nD) : (V m c main_v0 : S16x3x8192.Idx → EReal)
    = transpose S16x3x8192 [0, 2, 1] (rf m c) transposes_S16x8192x3_S16x3x8192_0_2_1 := by
  show StableHlo.after hostOps0 (fun b => m (c, b)) (Proc.devRef .tc main_v0) = _
  after_results

/-! ## Which block each point works on -/

theorem index0 : ∀ t : Fin cfg0.N, win0_0.index t (0 : Fin 3) = t.val / 32 ∧ win0_0.index t (1 : Fin 3) = 0
    ∧ win0_0.index t (2 : Fin 3) = 0 :=
  (by decide +kernel : ∀ t : Fin grid0.N, _)
theorem index1 : ∀ t : Fin cfg0.N, win0_1.index t (0 : Fin 3) = t.val / 32 ∧ win0_1.index t (1 : Fin 3) = 0
    ∧ win0_1.index t (2 : Fin 3) = t.val % 32 :=
  (by decide +kernel : ∀ t : Fin grid0.N, _)
theorem index2 : ∀ t : Fin cfg0.N, win0_2.index t (0 : Fin 2) = t.val / 32 ∧ win0_2.index t (1 : Fin 2) = 0 :=
  (by decide +kernel : ∀ t : Fin grid0.N, _)
theorem index3 : ∀ t : Fin cfg0.N, win0_3.index t (0 : Fin 2) = t.val / 32 ∧ win0_3.index t (1 : Fin 2) = t.val % 32 :=
  (by decide +kernel : ∀ t : Fin grid0.N, _)

/-- The sample block at point t: batch rows 8 (t / 32) + b of the sample array. -/
theorem iblk0_apply (c : Dev nD) (t : Fin cfg0.N) (j : S8x2048x3.Idx) (i : S16x2048x3.Idx)
    (h0 : (i 0).val = 8 * (t.val / 32) + (j 0).val) (h1 : (i 1).val = (j 1).val) (h2 : (i 2).val = (j 2).val) :
    (iblk m c 0 t : Vec Ideal S8x2048x3 .f32) j = sa m c i := by
  unfold iblk
  rw [View.read_apply]
  show V m c main_arg1 _ = _
  rw [V_main_arg1]
  refine congrArg (m ((c : Thread nD τ).loc main_arg1)) (funext fun a => Fin.ext ?_)
  obtain ⟨e0, e1, e2⟩ := index0 t
  match a with
  | ⟨0, _⟩ => show win0_0.index t (0 : Fin 3) * 8 + 1 * (j 0).val = (i 0).val; omega
  | ⟨1, _⟩ => show win0_0.index t (1 : Fin 3) * 2048 + 1 * (j 1).val = (i 1).val; omega
  | ⟨2, _⟩ => show win0_0.index t (2 : Fin 3) * 3 + 1 * (j 2).val = (i 2).val; omega

/-- The reference block at point t: batch rows 8 (t / 32) + b and points 256 (t mod 32) + k of the reference array,
    coordinate and point exchanged. -/
theorem iblk1_apply (c : Dev nD) (t : Fin cfg0.N) (b : Fin 8) (d : Fin 3) (k : Fin 256) (B : Fin 16) (Q : Fin 8192)
    (hB : B.val = 8 * (t.val / 32) + b.val) (hQ : Q.val = 256 * (t.val % 32) + k.val) :
    (iblk m c 1 t : Vec Ideal S8x3x256 .f32) (ix3 b d k) = rf m c (ix3 B Q d) := by
  unfold iblk
  rw [View.read_apply]
  show (V m c main_v0 : S16x3x8192.Idx → EReal) _ = _
  rw [V_reft]
  have e : ((cfg0.win 1).blk t).view.emb (ix3 b d k) = (ix3 B d Q : S16x3x8192.Idx) := funext fun a => Fin.ext (by
    obtain ⟨e0, e1, e2⟩ := index1 t
    match a with
    | ⟨0, _⟩ => show win0_1.index t (0 : Fin 3) * 8 + 1 * b.val = B.val; omega
    | ⟨1, _⟩ => show win0_1.index t (1 : Fin 3) * 3 + 1 * d.val = d.val; omega
    | ⟨2, _⟩ => show win0_1.index t (2 : Fin 3) * 256 + 1 * k.val = Q.val; omega)
  rw [e]
  exact transpose_ix3_021_apply (rf m c) transposes_S16x8192x3_S16x3x8192_0_2_1 B d Q

/-- The block's squared distances are the arrays', at the point's batch rows and reference points. -/
theorem blockDist_point (c : Dev nD) (t : Fin cfg0.N) (b : Fin 8) (n : Fin 2048) (k : Fin 256) (B : Fin 16) (Q : Fin 8192)
    (hB : B.val = 8 * (t.val / 32) + b.val) (hQ : Q.val = 256 * (t.val % 32) + k.val) :
    blockDist (iblk m c 0 t) (iblk m c 1 t) b n k = sqDist (sa m c) (rf m c) B n Q := by
  have a0 := iblk0_apply m c t (ix3 b n 0) (ix3 B n 0) hB rfl rfl
  have a1 := iblk0_apply m c t (ix3 b n 1) (ix3 B n 1) hB rfl rfl
  have a2 := iblk0_apply m c t (ix3 b n 2) (ix3 B n 2) hB rfl rfl
  have r0 := iblk1_apply m c t b 0 k B Q hB hQ
  have r1 := iblk1_apply m c t b 1 k B Q hB hQ
  have r2 := iblk1_apply m c t b 2 k B Q hB hQ
  unfold blockDist sqDist
  rw [a0, a1, a2, r0, r1, r2]

/-! ## The per-sample block along a batch group -/

theorem O2_first (c : Dev nD) (T : Fin cfg0.N) (h0 : T.val % 32 = 0) :
    (outsAt0 m c T.val T.isLt).1 = lowered (iblk m c 1 T) (iblk m c 0 T) (infBlock (F := Ideal)) := by
  rw [outsAt0_A m c T h0]
  exact out2_A_eq c (grid0.coords T) (ms0_0 T) (hs0_0 T) (ms0_1 T) (hs0_1 T) (ms0_2 T) (hs0_2 T) (ms0_3 T) (hs0_3 T) (iblk m c 0 T) (iblk m c 1 T) ((hcond0_0 T).mpr h0)

theorem O2_later (c : Dev nD) (T : Fin cfg0.N) (h0 : ¬T.val % 32 = 0) :
    (outsAt0 m c T.val T.isLt).1
      = lowered (iblk m c 1 T) (iblk m c 0 T) (outsAt0 m c (T.val - 1) (Nat.lt_of_le_of_lt (Nat.sub_le T.val 1) T.isLt)).1 := by
  rw [outsAt0_B m c T h0]
  exact out2_B_eq c (grid0.coords T) (ms0_0 T) (hs0_0 T) (ms0_1 T) (hs0_1 T) (ms0_2 T) (hs0_2 T) (ms0_3 T) (hs0_3 T) (iblk m c 0 T) (iblk m c 1 T) (fun h => h0 ((hcond0_0 T).mp h)) (outsAt0 m c (T.val - 1) (Nat.lt_of_le_of_lt (Nat.sub_le T.val 1) T.isLt)).1

theorem le_inf_block (i : S8x2048.Idx) (x : EReal) : x ≤ (infBlock (F := Ideal)) i := by
  show x ≤ Ideal.ofBits .f32 0x7F800000#32
  rw [ofBits_inf]; exact le_top

/-- After point t the per-sample block bounds exactly the squared distances to the reference points met so far in
    the batch group. -/
theorem le_O2_iff (c : Dev nD) : ∀ (t : ℕ) (ht : t < cfg0.N) (b : Fin 8) (n : Fin 2048) (B : Fin 16)
    (hB : B.val = 8 * (t / 32) + b.val) (x : EReal),
    x ≤ (outsAt0 m c t ht).1 (ix2 b n) ↔ ∀ q : Fin 8192, q.val < 256 * (t % 32 + 1) → x ≤ sqDist (sa m c) (rf m c) B n q := by
  intro t
  induction t with
  | zero =>
    intro ht b n B hB x
    rw [O2_first m c ⟨0, ht⟩ rfl]
    unfold lowered
    rw [le_min_iff, le_minOver_iff]
    constructor
    · rintro ⟨_, h⟩ q hq
      have hq' : q.val < 256 := by omega
      have := h ⟨q.val, hq'⟩
      rwa [blockDist_point m c ⟨0, ht⟩ b n ⟨q.val, hq'⟩ B q hB (by show q.val = 256 * (0 % 32) + q.val; omega)] at this
    · intro h
      refine ⟨le_inf_block _ x, fun k => ?_⟩
      rw [blockDist_point m c ⟨0, ht⟩ b n k B ⟨k.val, by have := k.isLt; omega⟩ hB (by show k.val = 256 * (0 % 32) + k.val; omega)]
      exact h _ (by show k.val < 256 * (0 % 32 + 1); have := k.isLt; omega)
  | succ t ih =>
    intro ht b n B hB x
    have hN : t + 1 < 64 := lt_of_lt_of_eq ht (show cfg0.N = 64 from N_0)
    by_cases h0 : (t + 1) % 32 = 0
    · rw [O2_first m c ⟨t + 1, ht⟩ h0]
      unfold lowered
      rw [le_min_iff, le_minOver_iff]
      constructor
      · rintro ⟨_, h⟩ q hq
        have hq' : q.val < 256 := by omega
        have := h ⟨q.val, hq'⟩
        rwa [blockDist_point m c ⟨t + 1, ht⟩ b n ⟨q.val, hq'⟩ B q hB (by show q.val = 256 * ((t + 1) % 32) + q.val; omega)] at this
      · intro h
        refine ⟨le_inf_block _ x, fun k => ?_⟩
        rw [blockDist_point m c ⟨t + 1, ht⟩ b n k B ⟨k.val, by have := k.isLt; omega⟩ hB (by show k.val = 256 * ((t + 1) % 32) + k.val; omega)]
        exact h _ (by show k.val < 256 * ((t + 1) % 32 + 1); have := k.isLt; omega)
    · rw [O2_later m c ⟨t + 1, ht⟩ h0]
      unfold lowered
      rw [le_min_iff, le_minOver_iff]
      have ih' := ih (Nat.lt_of_succ_lt ht) b n B (by omega) x
      have hprev : (outsAt0 m c ((⟨t + 1, ht⟩ : Fin cfg0.N).val - 1) (Nat.lt_of_le_of_lt (Nat.sub_le _ _) (⟨t + 1, ht⟩ : Fin cfg0.N).isLt)).1
          = (outsAt0 m c t (Nat.lt_of_succ_lt ht)).1 := rfl
      rw [hprev, ih']
      constructor
      · rintro ⟨hp, h⟩ q hq
        by_cases hlo : q.val < 256 * (t % 32 + 1)
        · exact hp q hlo
        · have hk : q.val - 256 * ((t + 1) % 32) < 256 := by omega
          have := h ⟨q.val - 256 * ((t + 1) % 32), hk⟩
          rwa [blockDist_point m c ⟨t + 1, ht⟩ b n ⟨q.val - 256 * ((t + 1) % 32), hk⟩ B q hB
            (by show q.val = 256 * ((t + 1) % 32) + (q.val - 256 * ((t + 1) % 32)); omega)] at this
      · intro h
        refine ⟨fun q hq => h q (by omega), fun k => ?_⟩
        have hk := k.isLt
        rw [blockDist_point m c ⟨t + 1, ht⟩ b n k B ⟨256 * ((t + 1) % 32) + k.val, by omega⟩ hB rfl]
        exact h _ (by show 256 * ((t + 1) % 32) + k.val < 256 * ((t + 1) % 32 + 1); omega)

/-- After the last point of a batch group the per-sample block is the nearest-reference array on the group's rows. -/
theorem O2_last (c : Dev nD) (t : Fin cfg0.N) (h31 : t.val % 32 = 31) (j : S8x2048.Idx) (i : S16x2048.Idx)
    (h0 : (i 0).val = 8 * (t.val / 32) + (j 0).val) (h1 : (i 1).val = (j 1).val) :
    (outsAt0 m c t.val t.isLt).1 j = nearestRef (sa m c) (rf m c) i := by
  obtain ⟨b, n, rfl⟩ : ∃ (b : Fin 8) (n : Fin 2048), j = ix2 b n := ⟨j 0, j 1, eq_ix2 j⟩
  refine eq_of_le_iff fun x => ?_
  rw [le_O2_iff m c t.val t.isLt b n (i 0) h0 x]
  unfold nearestRef
  rw [le_minOver_iff]
  have e : i 1 = n := Fin.ext h1
  rw [e]
  constructor
  · intro h q; exact h q (by have := q.isLt; omega)
  · intro h q _; exact h q

/-! ## The per-reference-point block -/

theorem O3_first (c : Dev nD) (T : Fin cfg0.N) (h0 : T.val % 32 = 0) :
    (outsAt0 m c T.val T.isLt).2 = colChain (iblk m c 1 T) (iblk m c 0 T) := by
  rw [outsAt0_A m c T h0]
  exact out3_A_eq c (grid0.coords T) (ms0_0 T) (hs0_0 T) (ms0_1 T) (hs0_1 T) (ms0_2 T) (hs0_2 T) (ms0_3 T) (hs0_3 T) (iblk m c 0 T) (iblk m c 1 T) ((hcond0_0 T).mpr h0)

theorem O3_later (c : Dev nD) (T : Fin cfg0.N) (h0 : ¬T.val % 32 = 0) :
    (outsAt0 m c T.val T.isLt).2 = colChain (iblk m c 1 T) (iblk m c 0 T) := by
  rw [outsAt0_B m c T h0]
  exact out3_B_eq c (grid0.coords T) (ms0_0 T) (hs0_0 T) (ms0_1 T) (hs0_1 T) (ms0_2 T) (hs0_2 T) (ms0_3 T) (hs0_3 T) (iblk m c 0 T) (iblk m c 1 T) (fun h => h0 ((hcond0_0 T).mp h)) (outsAt0 m c (T.val - 1) (Nat.lt_of_le_of_lt (Nat.sub_le T.val 1) T.isLt)).1

/-- After any point the per-reference-point block bounds exactly the squared distances from all samples. -/
theorem le_O3_iff (c : Dev nD) (T : Fin cfg0.N) (b : Fin 8) (k : Fin 256) (B : Fin 16) (Q : Fin 8192)
    (hB : B.val = 8 * (T.val / 32) + b.val) (hQ : Q.val = 256 * (T.val % 32) + k.val) (x : EReal) :
    x ≤ (outsAt0 m c T.val T.isLt).2 (ix2 b k) ↔ ∀ n : Fin 2048, x ≤ sqDist (sa m c) (rf m c) B n Q := by
  have hd : ∀ n : Fin 2048, blockDist (iblk m c 0 T) (iblk m c 1 T) b n k = sqDist (sa m c) (rf m c) B n Q :=
    fun n => blockDist_point m c T b n k B Q hB hQ
  have e : (outsAt0 m c T.val T.isLt).2 = colChain (iblk m c 1 T) (iblk m c 0 T) := by
    by_cases h0 : T.val % 32 = 0
    · exact O3_first m c T h0
    · exact O3_later m c T h0
  rw [e]
  refine (le_colChain_iff (iblk m c 0 T) (iblk m c 1 T) b k x).trans ?_
  simp only [hd]

theorem O3_point (c : Dev nD) (t : Fin cfg0.N) (j : S8x256.Idx) (i : S16x8192.Idx)
    (h0 : (i 0).val = 8 * (t.val / 32) + (j 0).val) (h1 : (i 1).val = 256 * (t.val % 32) + (j 1).val) :
    (outsAt0 m c t.val t.isLt).2 j = nearestSamp (sa m c) (rf m c) i := by
  obtain ⟨b, k, rfl⟩ : ∃ (b : Fin 8) (k : Fin 256), j = ix2 b k := ⟨j 0, j 1, eq_ix2 j⟩
  refine eq_of_le_iff fun x => ?_
  rw [le_O3_iff m c t b k (i 0) (i 1) h0 h1 x]
  unfold nearestSamp
  rw [le_minOver_iff]

/-! ## The blocks written back tile the two arrays -/

theorem flushed2_eq (c : Dev nD) (t : Fin cfg0.N) (hf : (cfg0.win 2).flush t = true) :
    (dats m 0 c).flushed 2 t = ((cfg0.win 2).blk t).view.read (Elt Ideal) (nearestRef (sa m c) (rf m c)) := by
  have h31 : t.val % 32 = 31 := (flush0_2 t).mp hf
  show (cfg0.win 2).cut (grid0.coords t) ((dats m 0 c).after 2 t) = _
  rw [after0_2]
  funext j
  obtain ⟨e0, e1⟩ := index2 t
  show (outsAt0 m c t.val t.isLt).1 j = nearestRef (sa m c) (rf m c) (((cfg0.win 2).blk t).view.emb j)
  refine O2_last m c t h31 j _ ?_ ?_
  · show win0_2.index t (0 : Fin 2) * 8 + 1 * (j 0).val = 8 * (t.val / 32) + (j 0).val; omega
  · show win0_2.index t (1 : Fin 2) * 2048 + 1 * (j 1).val = (j 1).val; omega

theorem flushed3_eq (c : Dev nD) (t : Fin cfg0.N) :
    (dats m 0 c).flushed 3 t = ((cfg0.win 3).blk t).view.read (Elt Ideal) (nearestSamp (sa m c) (rf m c)) := by
  show (cfg0.win 3).cut (grid0.coords t) ((dats m 0 c).after 3 t) = _
  rw [after0_3]
  funext j
  obtain ⟨e0, e1⟩ := index3 t
  show (outsAt0 m c t.val t.isLt).2 j = nearestSamp (sa m c) (rf m c) (((cfg0.win 3).blk t).view.emb j)
  refine O3_point m c t j _ ?_ ?_
  · show win0_3.index t (0 : Fin 2) * 8 + 1 * (j 0).val = 8 * (t.val / 32) + (j 0).val; omega
  · show win0_3.index t (1 : Fin 2) * 256 + 1 * (j 1).val = 256 * (t.val % 32) + (j 1).val; omega

theorem mem_blk2 (t : Fin cfg0.N) (i : S16x2048.Idx) :
    i ∈ ((cfg0.win 2).blk t).view.set ↔ ∀ a : Fin 2, win0_2.index t a * S8x2048.size a ≤ (i a).val ∧ (i a).val < win0_2.index t a * S8x2048.size a + S8x2048.size a := by
  show i ∈ ((View.whole main_v1_0).slice (win0_2.rect t)).set ↔ _
  rw [View.set_slice_whole, Rect.mem_set_unit]
  exact Iff.rfl

theorem mem_blk3 (t : Fin cfg0.N) (i : S16x8192.Idx) :
    i ∈ ((cfg0.win 3).blk t).view.set ↔ ∀ a : Fin 2, win0_3.index t a * S8x256.size a ≤ (i a).val ∧ (i a).val < win0_3.index t a * S8x256.size a + S8x256.size a := by
  show i ∈ ((View.whole main_v1_1).slice (win0_3.rect t)).set ↔ _
  rw [View.set_slice_whole, Rect.mem_set_unit]
  exact Iff.rfl

/-- The kernel's first result array ends as the nearest-reference array. -/
theorem final2 (c : Dev nD) : (dats m 0 c).arrAt 2 cfg0.N = nearestRef (sa m c) (rf m c) :=
  (dats m 0 c).arrAt_eq_of_cover 2 (nearestRef (sa m c) (rf m c)) (flushed2_eq m c) fun i => by
    have hi0 : (i 0).val < 16 := (i 0).isLt
    have hi1 : (i 1).val < 2048 := (i 1).isLt
    have hN : cfg0.N = 64 := N_0
    refine ⟨⟨32 * ((i 0).val / 8) + 31, by omega⟩, (flush0_2 _).mpr (by show (32 * ((i 0).val / 8) + 31) % 32 = 31; omega), ?_⟩
    rw [mem_blk2]
    obtain ⟨e0, e1⟩ := index2 ⟨32 * ((i 0).val / 8) + 31, by omega⟩
    intro a
    match a with
    | ⟨0, _⟩ =>
      show win0_2.index ⟨32 * ((i 0).val / 8) + 31, _⟩ (0 : Fin 2) * 8 ≤ (i 0).val ∧ (i 0).val < win0_2.index ⟨32 * ((i 0).val / 8) + 31, _⟩ (0 : Fin 2) * 8 + 8
      rw [e0]; show (32 * ((i 0).val / 8) + 31) / 32 * 8 ≤ (i 0).val ∧ (i 0).val < (32 * ((i 0).val / 8) + 31) / 32 * 8 + 8; omega
    | ⟨1, _⟩ =>
      show win0_2.index ⟨32 * ((i 0).val / 8) + 31, _⟩ (1 : Fin 2) * 2048 ≤ (i 1).val ∧ (i 1).val < win0_2.index ⟨32 * ((i 0).val / 8) + 31, _⟩ (1 : Fin 2) * 2048 + 2048
      rw [e1]; omega

/-- The kernel's second result array ends as the nearest-sample array. -/
theorem final3 (c : Dev nD) : (dats m 0 c).arrAt 3 cfg0.N = nearestSamp (sa m c) (rf m c) :=
  (dats m 0 c).arrAt_eq_of_cover 3 (nearestSamp (sa m c) (rf m c)) (fun t _ => flushed3_eq m c t) fun i => by
    have hi0 : (i 0).val < 16 := (i 0).isLt
    have hi1 : (i 1).val < 8192 := (i 1).isLt
    have hN : cfg0.N = 64 := N_0
    refine ⟨⟨32 * ((i 0).val / 8) + (i 1).val / 256, by omega⟩, flush0_3 _, ?_⟩
    rw [mem_blk3]
    obtain ⟨e0, e1⟩ := index3 ⟨32 * ((i 0).val / 8) + (i 1).val / 256, by omega⟩
    intro a
    match a with
    | ⟨0, _⟩ =>
      show win0_3.index ⟨32 * ((i 0).val / 8) + (i 1).val / 256, _⟩ (0 : Fin 2) * 8 ≤ (i 0).val ∧ (i 0).val < win0_3.index ⟨32 * ((i 0).val / 8) + (i 1).val / 256, _⟩ (0 : Fin 2) * 8 + 8
      rw [e0]; show (32 * ((i 0).val / 8) + (i 1).val / 256) / 32 * 8 ≤ (i 0).val ∧ (i 0).val < (32 * ((i 0).val / 8) + (i 1).val / 256) / 32 * 8 + 8; omega
    | ⟨1, _⟩ =>
      show win0_3.index ⟨32 * ((i 0).val / 8) + (i 1).val / 256, _⟩ (1 : Fin 2) * 256 ≤ (i 1).val ∧ (i 1).val < win0_3.index ⟨32 * ((i 0).val / 8) + (i 1).val / 256, _⟩ (1 : Fin 2) * 256 + 256
      rw [e1]; show (32 * ((i 0).val / 8) + (i 1).val / 256) % 32 * 256 ≤ (i 1).val ∧ (i 1).val < (32 * ((i 0).val / 8) + (i 1).val / 256) % 32 * 256 + 256; omega

end Cert.KernelIdeal.Accum

end
-- ==== Proof.Tail.lean ====
/-
  What both programs do with the two arrays of nearest squared distances: per batch row, the mean of the square roots
  of each array, the two means averaged; and the two plain means added. Stated once, for any float instance, over the
  literal shapes, so that each program's closing operations are this function of its two arrays.
-/
import Idealize.ShloMosaic.PureOps
import Idealize.ShloMosaic.Lib.StableHlo

noncomputable section

namespace Cert.Chamfer

open Idealize.ShloMosaic

variable {F : FTy → Type} [FloatOps F]

/-- ( mean sqrt p + mean sqrt q ) / 2, per batch row. -/
def rootMeans (h1 : (⟨2, ![16, 2048]⟩ : Shape).ReducesTo [1] ⟨1, ![16]⟩) (h2 : (⟨2, ![16, 8192]⟩ : Shape).ReducesTo [1] ⟨1, ![16]⟩)
    (hs : 0 < (⟨0, ![]⟩ : Shape).numel) (hb : (⟨0, ![]⟩ : Shape).BroadcastsInDim ⟨1, ![16]⟩ (![] : Fin 0 → Fin 1))
    (p : (⟨2, ![16, 2048]⟩ : Shape).Idx → F .f32) (q : (⟨2, ![16, 8192]⟩ : Shape).Idx → F .f32) : (⟨1, ![16]⟩ : Shape).Idx → F .f32 :=
  Host.divf
    (addf
      (Host.divf (Host.reduceAdd (Host.sqrt p) (constant (F := F) ⟨0, ![]⟩ .f32 0x00000000#32) h1 hs)
        (broadcastInDim ⟨1, ![16]⟩ ![] hb (constant (F := F) ⟨0, ![]⟩ .f32 0x45000000#32)))
      (Host.divf (Host.reduceAdd (Host.sqrt q) (constant (F := F) ⟨0, ![]⟩ .f32 0x00000000#32) h2 hs)
        (broadcastInDim ⟨1, ![16]⟩ ![] hb (constant (F := F) ⟨0, ![]⟩ .f32 0x46000000#32))))
    (broadcastInDim ⟨1, ![16]⟩ ![] hb (constant (F := F) ⟨0, ![]⟩ .f32 0x40000000#32))

/-- mean p + mean q, per batch row. -/
def plainMeans (h1 : (⟨2, ![16, 2048]⟩ : Shape).ReducesTo [1] ⟨1, ![16]⟩) (h2 : (⟨2, ![16, 8192]⟩ : Shape).ReducesTo [1] ⟨1, ![16]⟩)
    (hs : 0 < (⟨0, ![]⟩ : Shape).numel) (hb : (⟨0, ![]⟩ : Shape).BroadcastsInDim ⟨1, ![16]⟩ (![] : Fin 0 → Fin 1))
    (p : (⟨2, ![16, 2048]⟩ : Shape).Idx → F .f32) (q : (⟨2, ![16, 8192]⟩ : Shape).Idx → F .f32) : (⟨1, ![16]⟩ : Shape).Idx → F .f32 :=
  addf
    (Host.divf (Host.reduceAdd p (constant (F := F) ⟨0, ![]⟩ .f32 0x00000000#32) h1 hs)
      (broadcastInDim ⟨1, ![16]⟩ ![] hb (constant (F := F) ⟨0, ![]⟩ .f32 0x45000000#32)))
    (Host.divf (Host.reduceAdd q (constant (F := F) ⟨0, ![]⟩ .f32 0x00000000#32) h2 hs)
      (broadcastInDim ⟨1, ![16]⟩ ![] hb (constant (F := F) ⟨0, ![]⟩ .f32 0x46000000#32)))

end Cert.Chamfer

end
-- ==== Proof.KernelRun.lean ====
/-
  The kernel's run, read: its two results are the shared closing operations of the two nearest-squared-distance
  arrays, and its arguments end unchanged.

  After the region the program applies, to the two arrays the region wrote, exactly the closing operations both
  programs share; the region wrote the nearest-reference array and the nearest-sample array.
-/
import proofs.«140802_j28621662060808_2_alg».proof.Proof.Accum
import proofs.«140802_j28621662060808_2_alg».proof.Proof.Tail

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.KernelIdeal.Accum Cert.Chamfer

variable (m : (ℓ : Loc nD τ sig) → Buf (Elt Ideal) ℓ) (ρ : Dev nD → PrngReg)

/-- The first result after the closing operations, of the two arrays the region leaves. -/
theorem tail12 (c : Dev nD) : Pipeline.afterTail₀ cfgs (dats m) 0 (V0 m) [hostOps1] c main_v12
    = rootMeans (F := Ideal) reducesTo_S16x2048_S16_d1 reducesTo_S16x8192_S16_d1 h_S_ bcast_S_S16
        ((dats m 0 c).arrAt 2 cfg0.N) ((dats m 0 c).arrAt 3 cfg0.N) := by
  unfold Pipeline.afterTail₀
  show StableHlo.after hostOps1 _ (Proc.devRef .tc main_v12) = _
  after_results
  rw [Pipeline.withArrays_arr spec0 launch0.win.arr_inj c _ _ 2, Pipeline.withArrays_arr spec0 launch0.win.arr_inj c _ _ 3]
  rfl

set_option maxHeartbeats 1000000 in
/-- The second result likewise. -/
theorem tail19 (c : Dev nD) : Pipeline.afterTail₀ cfgs (dats m) 0 (V0 m) [hostOps1] c main_v19
    = plainMeans (F := Ideal) reducesTo_S16x2048_S16_d1 reducesTo_S16x8192_S16_d1 h_S_ bcast_S_S16
        ((dats m 0 c).arrAt 2 cfg0.N) ((dats m 0 c).arrAt 3 cfg0.N) := by
  unfold Pipeline.afterTail₀
  show StableHlo.after hostOps1 _ (Proc.devRef .tc main_v19) = _
  after_results_simp
  rw [Pipeline.withArrays_arr spec0 launch0.win.arr_inj c _ _ 2, Pipeline.withArrays_arr spec0 launch0.win.arr_inj c _ _ 3]
  rfl

/-- Every weakly fair execution of the kernel's program ends with its two results at the closing operations of the
    nearest-reference and nearest-sample arrays of its arguments, the arguments unchanged. -/
theorem run : θ_run defs (onTc (τ := τ) (main (F := Ideal))) ⟨m, fun _ => 0, ρ⟩ fun r => ∀ c : Dev nD,
      r.2.mem ((c.tc : Thread nD τ).loc main_v12)
          = rootMeans (F := Ideal) reducesTo_S16x2048_S16_d1 reducesTo_S16x8192_S16_d1 h_S_ bcast_S_S16
              (nearestRef (sa m c) (rf m c)) (nearestSamp (sa m c) (rf m c))
      ∧ r.2.mem ((c.tc : Thread nD τ).loc main_v19)
          = plainMeans (F := Ideal) reducesTo_S16x2048_S16_d1 reducesTo_S16x8192_S16_d1 h_S_ bcast_S_S16
              (nearestRef (sa m c) (rf m c)) (nearestSamp (sa m c) (rf m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨
      ((h c).2 main_v12 (Pipeline.mem_restRefs_of main_v12 (by decide) (by decide))).trans
        ((tail12 m c).trans (by rw [final2, final3])),
      ((h c).2 main_v19 (Pipeline.mem_restRefs_of main_v19 (by decide) (by decide))).trans
        ((tail19 m c).trans (by rw [final2, final3])),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

end Cert.KernelIdeal.KernelRun

end
-- ==== Proof.RefValue.lean ====
/-
  The reference's two arrays are the nearest-squared-distance arrays, when every input is a real.

  At (B, n, q) the reference forms |s|^2 + |r|^2 - 2 s.r of sample n and reference point q and floors it at zero; for
  real coordinates that is the sum of the squared coordinate differences. Its two minimum reductions from +inf over
  the reference axis and over the sample axis are then the two arrays of nearest squared distances, and its closing
  operations are the shared ones of those two arrays.
-/
import proofs.«140802_j28621662060808_2_alg».proof.Proof.Gen.ReferenceIdeal.Read
import proofs.«140802_j28621662060808_2_alg».proof.Proof.Spec
import proofs.«140802_j28621662060808_2_alg».proof.Proof.Tail

noncomputable section

namespace Cert.ReferenceIdeal.RefValue

open Cert.ReferenceIdeal Cert.ReferenceIdeal.Gen Cert.ReferenceIdeal.Read Cert.Chamfer
open Idealize.ShloMosaic Idealize.ShloMosaic.ValueIdx

/-- Every entry of the array is a real number. -/
def AllReal {S : Shape} (x : S.Idx → EReal) : Prop := ∀ i, ∃ r : ℝ, x i = (r : EReal)

/-- The floored expansion at (B, n, q) is the squared distance from sample n to reference point q. -/
theorem floored_apply (x0 : (⟨S16x8192x3, .f32⟩ : BufTy).Contents (Elt Ideal)) (x1 : (⟨S16x2048x3, .f32⟩ : BufTy).Contents (Elt Ideal))
    (h0 : AllReal (S := S16x8192x3) x0) (h1 : AllReal (S := S16x2048x3) x1) (B : Fin 16) (n : Fin 2048) (q : Fin 8192) :
    val_main_v14 (F := Ideal) x0 x1 (ix3 B n q) = sqDist x1 x0 B n q := by
  have ea : ∀ k : Fin 3, idx_main_v1 (idx_main_v5 (idx_main_v7 (ix3 B n q))) k = ix3 B n k := fun k =>
    funext fun a => Fin.ext (by match a with | ⟨0, _⟩ => rfl | ⟨1, _⟩ => rfl | ⟨2, _⟩ => rfl)
  have eb : ∀ k : Fin 3, idx_main_v3 (idx_main_v6 (idx_main_v8 (ix3 B n q))) k = ix3 B q k := fun k =>
    funext fun a => Fin.ext (by match a with | ⟨0, _⟩ => rfl | ⟨1, _⟩ => rfl | ⟨2, _⟩ => rfl)
  have el : ∀ k : Fin 3, lidx_main_v4 (ix3 B n q) k = ix3 B n k := fun k =>
    funext fun a => Fin.ext (by match a with | ⟨0, _⟩ => rfl | ⟨1, _⟩ => rfl | ⟨2, _⟩ => rfl)
  have er : ∀ k : Fin 3, ridx_main_v4 (ix3 B n q) k = ix3 B q k := fun k =>
    funext fun a => Fin.ext (by match a with | ⟨0, _⟩ => rfl | ⟨1, _⟩ => rfl | ⟨2, _⟩ => rfl)
  rw [val_main_v14_apply, val_main_v12_apply, val_main_v9_apply, val_main_v7_apply, val_main_v5_apply, val_main_v1_apply,
    val_main_v8_apply, val_main_v6_apply, val_main_v3_apply, val_main_v11_apply, val_main_v10_apply, val_main_v4_apply,
    val_main_v13_apply]
  simp only [val_main_v0_apply, val_main_v2_apply, val_main_cst_apply, val_main_cst_0_apply, val_main_cst_1_apply,
    val_main_cst_2_apply, ea, eb, el, er, Ideal.maximumf_def, Ideal.subf_def, Ideal.addf_def, Ideal.mulf_def, Ideal.ofBits_def,
    Ideal.ofBits_zero_f32, ofBits_two]
  choose a ha using fun k : Fin 3 => h1 (ix3 B n k)
  choose b hb using fun k : Fin 3 => h0 (ix3 B q k)
  simp only [ha, hb]
  rw [expanded_eq_sqd a b]
  unfold sqDist
  rw [ha 0, ha 1, ha 2, hb 0, hb 1, hb 2]

theorem lift_ref (h : S16x2048x8192.Reduces [2] S16x2048) (B : Fin 16) (n : Fin 2048) (q : Fin (S16x2048x8192.size 2)) :
    h.lift (ix2 B n) q = ix3 B n (⟨q.val, q.isLt⟩ : Fin 8192) := by
  funext c; apply Fin.ext
  fin_cases c <;> rfl

theorem lift_samp (h : S16x2048x8192.Reduces [1] S16x8192) (B : Fin 16) (q : Fin 8192) (n : Fin (S16x2048x8192.size 1)) :
    h.lift (ix2 B q) n = ix3 B (⟨n.val, n.isLt⟩ : Fin 2048) q := by
  funext c; apply Fin.ext
  fin_cases c <;> rfl

theorem reduces_ref : S16x2048x8192.Reduces [2] S16x2048 := by decide
theorem reduces_samp : S16x2048x8192.Reduces [1] S16x8192 := by decide

/-- The reference's minimum over the reference axis is the nearest-reference array. -/
theorem v15_eq (x0 : (⟨S16x8192x3, .f32⟩ : BufTy).Contents (Elt Ideal)) (x1 : (⟨S16x2048x3, .f32⟩ : BufTy).Contents (Elt Ideal))
    (h0 : AllReal (S := S16x8192x3) x0) (h1 : AllReal (S := S16x2048x3) x1) :
    val_main_v15 (F := Ideal) x0 x1 = nearestRef x1 x0 := by
  funext i
  obtain ⟨B, n, rfl⟩ : ∃ (B : Fin 16) (n : Fin 2048), i = ix2 B n := ⟨i 0, i 1, eq_ix2 i⟩
  unfold val_main_v15 nearestRef minOver
  rw [Host.reduce_eq_fold_single FloatOps.minimumf _ _ reducesTo_S16x2048x8192_S16x2048_d2 reduces_ref h_S_]
  refine (congrArg (fun z => Finset.fold _ z _ _) ?_).trans (Finset.fold_congr fun q _ => ?_)
  · show Ideal.ofBits .f32 0x7F800000#32 = ⊤
    exact ofBits_inf
  · exact (congrArg (val_main_v14 (F := Ideal) x0 x1) (lift_ref reduces_ref B n q)).trans
      (floored_apply x0 x1 h0 h1 B n ⟨q.val, q.isLt⟩)

/-- The reference's minimum over the sample axis is the nearest-sample array. -/
theorem v16_eq (x0 : (⟨S16x8192x3, .f32⟩ : BufTy).Contents (Elt Ideal)) (x1 : (⟨S16x2048x3, .f32⟩ : BufTy).Contents (Elt Ideal))
    (h0 : AllReal (S := S16x8192x3) x0) (h1 : AllReal (S := S16x2048x3) x1) :
    val_main_v16 (F := Ideal) x0 x1 = nearestSamp x1 x0 := by
  funext i
  obtain ⟨B, q, rfl⟩ : ∃ (B : Fin 16) (q : Fin 8192), i = ix2 B q := ⟨i 0, i 1, eq_ix2 i⟩
  unfold val_main_v16 nearestSamp minOver
  rw [Host.reduce_eq_fold_single FloatOps.minimumf _ _ reducesTo_S16x2048x8192_S16x8192_d1 reduces_samp h_S_]
  refine (congrArg (fun z => Finset.fold _ z _ _) ?_).trans (Finset.fold_congr fun n _ => ?_)
  · show Ideal.ofBits .f32 0x7F800000#32 = ⊤
    exact ofBits_inf
  · exact (congrArg (val_main_v14 (F := Ideal) x0 x1) (lift_samp reduces_samp B q n)).trans
      (floored_apply x0 x1 h0 h1 B ⟨n.val, n.isLt⟩ q)

/-- The reference's two results are the shared closing operations of its two arrays. -/
theorem v27_eq_tail {F : FTy → Type} [FloatOps F] (x0 : (⟨S16x8192x3, .f32⟩ : BufTy).Contents (Elt F)) (x1 : (⟨S16x2048x3, .f32⟩ : BufTy).Contents (Elt F)) :
    val_main_v27 (F := F) x0 x1
      = rootMeans reducesTo_S16x2048_S16_d1 reducesTo_S16x8192_S16_d1 h_S_ bcast_S_S16 (val_main_v15 (F := F) x0 x1) (val_main_v16 (F := F) x0 x1) := rfl

theorem v34_eq_tail {F : FTy → Type} [FloatOps F] (x0 : (⟨S16x8192x3, .f32⟩ : BufTy).Contents (Elt F)) (x1 : (⟨S16x2048x3, .f32⟩ : BufTy).Contents (Elt F)) :
    val_main_v34 (F := F) x0 x1
      = plainMeans reducesTo_S16x2048_S16_d1 reducesTo_S16x8192_S16_d1 h_S_ bcast_S_S16 (val_main_v15 (F := F) x0 x1) (val_main_v16 (F := F) x0 x1) := rfl

end Cert.ReferenceIdeal.RefValue

end
-- ==== Proof.Finite.lean ====
/-
  The precondition says every input entry is a real number.

  It is the conjunction of two "all" reductions of |x| < +inf over the two input arrays. On the extended reals
  |x| = max x (-x) is below +inf exactly when x is neither infinity, that is, when x is a real.
-/
import proofs.«140802_j28621662060808_2_alg».proof.Pre_finite_inputs
import proofs.«140802_j28621662060808_2_alg».proof.Proof.Spec
import Idealize.ShloMosaic.Lib.ReduceAll
import Idealize.ShloMosaic.Lib.ValueIdx

noncomputable section

namespace Cert.Pre_finite_inputs.Finite

open Idealize.ShloMosaic Cert.Pre_finite_inputs Cert.Chamfer

instance : Subsingleton S_.Idx := ⟨fun a b => funext fun d => d.elim0⟩

/-- An extended real whose absolute value compares below +inf is a real. -/
theorem real_of_cmp (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  induction x using EReal.rec with
  | bot => simp at hlt
  | coe r => exact ⟨r, rfl⟩
  | top => simp at hlt

/-- Under the precondition both input arrays hold reals only. -/
theorem all_real [Facts] (x0 : FVec Ideal S16x8192x3 .f32) (x1 : FVec Ideal S16x2048x3 .f32)
    (h : fn (F := Ideal) x0 x1 = fun _ => 1#1) :
    (∀ i, ∃ r : ℝ, x0 i = (r : EReal)) ∧ (∀ i, ∃ r : ℝ, x1 i = (r : EReal)) := by
  have h' := congrFun h ValueIdx.ix0
  dsimp only [fn] at h'
  obtain ⟨ha, hb⟩ := IntOp.andi_eq_one.mp h'
  exact ⟨fun i => real_of_cmp _ (Host.reduce_andi_all _ _ _ _ _ ha i), fun i => real_of_cmp _ (Host.reduce_andi_all _ _ _ _ _ hb i)⟩

end Cert.Pre_finite_inputs.Finite

end
-- ==== Proof.lean ====
/-
  Chamfer distance between two point clouds, batched: a tiled kernel against a plain reference.

  For a sample cloud s (16 x 2048 x 3) and a reference cloud r (16 x 8192 x 3) both programs form, per batch row,
  for each sample the squared distance to its nearest reference point and for each reference point the squared
  distance to its nearest sample, and then return per batch row the averaged means of the square roots and the sum
  of the plain means of those two arrays.

  The kernel walks a 2 x 32 grid (batch groups of 8 rows, blocks of 256 reference points), computes squared distances
  as sums of squared coordinate differences chunk by chunk, keeps a running minimum per sample across the 32 blocks
  of a batch group and writes a fresh minimum per reference point for every block. The reference expands the squared
  distance as |s|^2 + |r|^2 - 2 s.r, floors it at zero and takes two minimum reductions. On the extended reals the
  two squared distances agree where the coordinates are real — the precondition — since the expansion distributes
  products over differences and a sum of squares is not negative; a minimum taken blockwise, chunkwise and from +inf
  is the minimum over the whole axis; the closing operations are the same on both sides.

  Modules: LibMinFold (minima from +inf), Spec (the algebra and the two arrays), Tail (the closing operations), Chunk, Pieces, CaseValues (one grid
  point), Accum (the grid and the two arrays), KernelRun (the kernel's run), RefValue (the reference), Finite (the
  precondition).
-/
import proofs.«140802_j28621662060808_2_alg».proof.Defs
import proofs.«140802_j28621662060808_2_alg».proof.Proof.Gen.Kernel
import proofs.«140802_j28621662060808_2_alg».proof.Proof.Gen.Kernel.Skeleton
import proofs.«140802_j28621662060808_2_alg».proof.Proof.Gen.Kernel.Launch
import proofs.«140802_j28621662060808_2_alg».proof.Proof.Gen.Kernel.Points
import proofs.«140802_j28621662060808_2_alg».proof.Proof.Gen.Kernel.Frame
import proofs.«140802_j28621662060808_2_alg».proof.Proof.Gen.KernelIdeal
import proofs.«140802_j28621662060808_2_alg».proof.Proof.Gen.KernelIdeal.Skeleton
import proofs.«140802_j28621662060808_2_alg».proof.Proof.Gen.KernelIdeal.Launch
import proofs.«140802_j28621662060808_2_alg».proof.Proof.Gen.KernelIdeal.Points
import proofs.«140802_j28621662060808_2_alg».proof.Proof.Gen.KernelIdeal.Frame
import proofs.«140802_j28621662060808_2_alg».proof.Proof.Gen.ReferenceIdeal
import proofs.«140802_j28621662060808_2_alg».proof.Proof.Gen.Pre_finite_inputs
import proofs.«140802_j28621662060808_2_alg».proof.Proof.Gen.ReferenceIdeal.Run
import proofs.«140802_j28621662060808_2_alg».proof.Proof.Gen.ReferenceIdeal.Read
import proofs.«140802_j28621662060808_2_alg».proof.Proof.KernelRun
import proofs.«140802_j28621662060808_2_alg».proof.Proof.RefValue
import proofs.«140802_j28621662060808_2_alg».proof.Proof.Finite
import Idealize.ShloMosaic.Adequacy
import Idealize.ShloMosaic.Init

noncomputable section

namespace Cert.Proof

open Idealize.ShloMosaic Idealize.SL.Sem Cert.Chamfer

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the two clouds, whose entries are all real, both programs end with the closing
    operations of the nearest-reference and nearest-sample arrays of those clouds. -/
theorem algebraic : Cert.algebraic_KernelIdeal_ReferenceIdeal := by
  intro m ρ m' ρ' hpre hagree
  have hreal := fun c => Cert.Pre_finite_inputs.Finite.all_real _ _ (hpre c)
  refine ⟨fun c => rootMeans (F := Ideal) Cert.KernelIdeal.Gen.reducesTo_S16x2048_S16_d1 Cert.KernelIdeal.Gen.reducesTo_S16x8192_S16_d1
      Cert.KernelIdeal.Gen.h_S_ Cert.KernelIdeal.Gen.bcast_S_S16
      (nearestRef (Cert.KernelIdeal.Accum.sa m c) (Cert.KernelIdeal.Accum.rf m c))
      (nearestSamp (Cert.KernelIdeal.Accum.sa m c) (Cert.KernelIdeal.Accum.rf m c)),
    fun c => plainMeans (F := Ideal) Cert.KernelIdeal.Gen.reducesTo_S16x2048_S16_d1 Cert.KernelIdeal.Gen.reducesTo_S16x8192_S16_d1
      Cert.KernelIdeal.Gen.h_S_ Cert.KernelIdeal.Gen.bcast_S_S16
      (nearestRef (Cert.KernelIdeal.Accum.sa m c) (Cert.KernelIdeal.Accum.rf m c))
      (nearestSamp (Cert.KernelIdeal.Accum.sa m c) (Cert.KernelIdeal.Accum.rf m c)),
    Cert.KernelIdeal.KernelRun.run m ρ, ?_⟩
  refine (θ_run Cert.ReferenceIdeal.defs _ _).mono (fun _ h c => ?_) (Cert.ReferenceIdeal.Value.run (F := Ideal) m' ρ')
  obtain ⟨h27, h34, ha0, ha1⟩ := h c
  refine ⟨h27.trans ?_, h34.trans ?_, ha0, ha1⟩
  · rw [Cert.ReferenceIdeal.Read.val_main_v27_eq, Cert.ReferenceIdeal.RefValue.v27_eq_tail, (hagree c).1, (hagree c).2,
      Cert.ReferenceIdeal.RefValue.v15_eq _ _ (hreal c).1 (hreal c).2, Cert.ReferenceIdeal.RefValue.v16_eq _ _ (hreal c).1 (hreal c).2]
  · rw [Cert.ReferenceIdeal.Read.val_main_v34_eq, Cert.ReferenceIdeal.RefValue.v34_eq_tail, (hagree c).1, (hagree c).2,
      Cert.ReferenceIdeal.RefValue.v15_eq _ _ (hreal c).1 (hreal c).2, Cert.ReferenceIdeal.RefValue.v16_eq _ _ (hreal c).1 (hreal c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
